-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x2048 : Shape := ⟨3, ![256, 196, 2048]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S8x1024 : Shape := ⟨2, ![8, 1024]⟩
abbrev S8 : Shape := ⟨1, ![8]⟩
abbrev S_ : Shape := ⟨0, ![]⟩

class Facts : Prop where
  bcast_S_S256x196x2048 : S_.BroadcastsInDim S256x196x2048 (![] : Fin 0 → Fin S256x196x2048.rank)
  reducesTo_S256x196x2048_S_d0_1_2 : S256x196x2048.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S8x1024 .f32) (main_arg7 : FVec F S8 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8x1024 .f32 := Host.absf main_arg6
  let main_cst_10 : FVec F S_ .f32 := constant S_ .f32 0x7F800000#32
  let main_v30 : FVec F S8x1024 .f32 := broadcastInDim S8x1024 ![] bcast_S_S8x1024 main_cst_10
  let main_v31 : IVec S8x1024 1 := cmpf .olt main_v29 main_v30
  let main_c_11 : IVec S_ 1 := constantI S_ 1 1#1
  let main_v32 : IVec S_ 1 := (fun x v => Host.reduce IntOp.andi x v reducesTo_S8x1024_S_d0_1 h_S_) main_v31 main_c_11
  let main_v33 : IVec S_ 1 := andi main_v28 main_v32
  fn_part2 (F := F) main_arg7 main_v33

def fn {F : FTy → Type} [FloatOps F] (main_arg0 : FVec F S256x196x2048 .f32) (main_arg1 : FVec F S256x1024 .f32) (main_arg2 : FVec F S1024x1024 .f32) (main_arg3 : FVec F S1024 .f32) (main_arg4 : FVec F S1024x2048 .f32) (main_arg5 : FVec F S1024 .f32) (main_arg6 : FVec F S8x1024 .f32) (main_arg7 : FVec F S8 .f32) : IVec S_ 1 :=
  let main_v0 : FVec F S256x196x2048 .f32 := Host.absf main_arg0
  let main_cst : FVec F S_ .f32 := constant S_ .f32 0x7F800000#32
  let main_v1 : FVec F S256x196x2048 .f32 := broadcastInDim S256x196x2048 ![] bcast_S_S256x196x2048 main_cst
  let main_v2 : IVec S256x196x2048 1 := cmpf .olt main_v0 main_v1
  let main_c : IVec S_ 1 := constantI S_ 1 1#1
  let main_v3 : IVec S_ 1 := (fun x v => Host.reduce IntOp.andi x v reducesTo_S256x196x2048_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S256x196x2048 : Shape := ⟨3, ![256, 196, 2048]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S8x1024 : Shape := ⟨2, ![8, 1024]⟩
abbrev S8 : Shape := ⟨1, ![8]⟩
abbrev S256x196x8 : Shape := ⟨3, ![256, 196, 8]⟩
abbrev S8x196x2048 : Shape := ⟨3, ![8, 196, 2048]⟩
abbrev S8x196x8 : Shape := ⟨3, ![8, 196, 8]⟩
abbrev S1x1024 : Shape := ⟨2, ![1, 1024]⟩
abbrev S1x196x2048 : Shape := ⟨3, ![1, 196, 2048]⟩
abbrev S196x2048 : Shape := ⟨2, ![196, 2048]⟩
abbrev S2048x1024 : Shape := ⟨2, ![2048, 1024]⟩
abbrev S196x1024 : Shape := ⟨2, ![196, 1024]⟩
abbrev S1024x8 : Shape := ⟨2, ![1024, 8]⟩
abbrev S196x8 : Shape := ⟨2, ![196, 8]⟩
abbrev S1x8 : Shape := ⟨2, ![1, 8]⟩
abbrev S1x196x8 : Shape := ⟨3, ![1, 196, 8]⟩
abbrev S256x8x2048 : Shape := ⟨3, ![256, 8, 2048]⟩
abbrev S16x196x8 : Shape := ⟨3, ![16, 196, 8]⟩
abbrev S16x196x2048 : Shape := ⟨3, ![16, 196, 2048]⟩
abbrev S16x8x2048 : Shape := ⟨3, ![16, 8, 2048]⟩
abbrev S8x196 : Shape := ⟨2, ![8, 196]⟩
abbrev S8x2048 : Shape := ⟨2, ![8, 2048]⟩
abbrev S1x8x2048 : Shape := ⟨3, ![1, 8, 2048]⟩
abbrev S256x16384 : Shape := ⟨2, ![256, 16384]⟩

abbrev nBuf : Space → Nat
  | .hbm => 15
  | .vmem => 18
  | .smem => 0
  | _ => 0

abbrev bufTy : (tb : Table) → Fin (tcTables nBuf tb) → BufTy
  | .hbm, ⟨0, _⟩ => ⟨S256x196x2048, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x1024, .f32⟩
  | .hbm, ⟨7, _⟩ => ⟨S8, .f32⟩
  | .hbm, ⟨8, _⟩ => ⟨S1024x1024, .bf16⟩
  | .hbm, ⟨9, _⟩ => ⟨S1024x2048, .bf16⟩
  | .hbm, ⟨10, _⟩ => ⟨S8x1024, .bf16⟩
  | .hbm, ⟨11, _⟩ => ⟨S256x1024, .bf16⟩
  | .hbm, ⟨12, _⟩ => ⟨S256x196x8, .f32⟩
  | .hbm, ⟨13, _⟩ => ⟨S256x8x2048, .f32⟩
  | .hbm, ⟨14, _⟩ => ⟨S256x16384, .f32⟩
  | .local _ .vmem, ⟨0, _⟩ => ⟨S8x196x2048, .f32⟩
  | .local _ .vmem, ⟨1, _⟩ => ⟨S8x196x2048, .f32⟩
  | .local _ .vmem, ⟨2, _⟩ => ⟨S8x1024, .bf16⟩
  | .local _ .vmem, ⟨3, _⟩ => ⟨S8x1024, .bf16⟩
  | .local _ .vmem, ⟨4, _⟩ => ⟨S1024x1024, .bf16⟩
  | .local _ .vmem, ⟨5, _⟩ => ⟨S1024, .f32⟩
  | .local _ .vmem, ⟨6, _⟩ => ⟨S1024x2048, .bf16⟩
  | .local _ .vmem, ⟨7, _⟩ => ⟨S1024, .f32⟩
  | .local _ .vmem, ⟨8, _⟩ => ⟨S8x1024, .bf16⟩
  | .local _ .vmem, ⟨9, _⟩ => ⟨S8, .f32⟩
  | .local _ .vmem, ⟨10, _⟩ => ⟨S8x196x8, .f32⟩
  | .local _ .vmem, ⟨11, _⟩ => ⟨S8x196x8, .f32⟩
  | .local _ .vmem, ⟨12, _⟩ => ⟨S16x196x8, .f32⟩
  | .local _ .vmem, ⟨13, _⟩ => ⟨S16x196x8, .f32⟩
  | .local _ .vmem, ⟨14, _⟩ => ⟨S16x196x2048, .f32⟩
  | .local _ .vmem, ⟨15, _⟩ => ⟨S16x196x2048, .f32⟩
  | .local _ .vmem, ⟨16, _⟩ => ⟨S16x8x2048, .f32⟩
  | .local _ .vmem, ⟨17, _⟩ => ⟨S16x8x2048, .f32⟩
  | _, _ => ⟨S256x196x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x196x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x196x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x196x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x196x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024_S1024_0 : ∀ a, (![0] : Fin 1 → Nat) a + S1024.size a ≤ S1024.size a
  h_S1024 : 0 < S1024.numel
  inb_S8_S8_0 : ∀ a, (![0] : Fin 1 → Nat) a + S8.size a ≤ S8.size a
  h_S8 : 0 < S8.numel
  transposes_S1024x1024_p1_0_S1024x1024 : S1024x1024.Transposes [1, 0] S1024x1024
  shapeCasts_S1024_S1x1024 : S1024.ShapeCasts S1x1024
  broadcasts_S1x1024_S8x1024 : S1x1024.Broadcasts S8x1024
  inb_S8x196x2048_S1x196x2048_0_0_0 : ∀ a, (![0, 0, 0] : Fin 3 → Nat) a + S1x196x2048.size a ≤ S8x196x2048.size a
  h_S1x196x2048 : 0 < S1x196x2048.numel
  shapeCasts_S1x196x2048_S196x2048 : S1x196x2048.ShapeCasts S196x2048
  transposes_S1024x2048_p1_0_S2048x1024 : S1024x2048.Transposes [1, 0] S2048x1024
  broadcasts_S1x1024_S196x1024 : S1x1024.Broadcasts S196x1024
  slices_S8x1024_o0_0_S1x1024 : S8x1024.Slices ![0, 0] S1x1024
  shapeCasts_S1x1024_S1024 : S1x1024.ShapeCasts S1024
  transposes_S8x1024_p1_0_S1024x8 : S8x1024.Transposes [1, 0] S1024x8
  shapeCasts_S8_S1x8 : S8.ShapeCasts S1x8
  broadcasts_S1x8_S196x8 : S1x8.Broadcasts S196x8
  inb_S8x196x8_S1x196x8_0_0_0 : ∀ a, (![0, 0, 0] : Fin 3 → Nat) a + S1x196x8.size a ≤ S8x196x8.size a
  h_S1x196x8 : 0 < S1x196x8.numel
  shapeCasts_S1x196x8_S196x8 : S1x196x8.ShapeCasts S196x8
  shapeCasts_S196x8_S1x196x8 : S196x8.ShapeCasts S1x196x8
  inb_S8x196x2048_S1x196x2048_1_0_0 : ∀ a, (![1, 0, 0] : Fin 3 → Nat) a + S1x196x2048.size a ≤ S8x196x2048.size a
  slices_S8x1024_o1_0_S1x1024 : S8x1024.Slices ![1, 0] S1x1024
  inb_S8x196x8_S1x196x8_1_0_0 : ∀ a, (![1, 0, 0] : Fin 3 → Nat) a + S1x196x8.size a ≤ S8x196x8.size a
  inb_S8x196x2048_S1x196x2048_2_0_0 : ∀ a, (![2, 0, 0] : Fin 3 → Nat) a + S1x196x2048.size a ≤ S8x196x2048.size a
  slices_S8x1024_o2_0_S1x1024 : S8x1024.Slices ![2, 0] S1x1024
  inb_S8x196x8_S1x196x8_2_0_0 : ∀ a, (![2, 0, 0] : Fin 3 → Nat) a + S1x196x8.size a ≤ S8x196x8.size a
  inb_S8x196x2048_S1x196x2048_3_0_0 : ∀ a, (![3, 0, 0] : Fin 3 → Nat) a + S1x196x2048.size a ≤ S8x196x2048.size a
  slices_S8x1024_o3_0_S1x1024 : S8x1024.Slices ![3, 0] S1x1024
  inb_S8x196x8_S1x196x8_3_0_0 : ∀ a, (![3, 0, 0] : Fin 3 → Nat) a + S1x196x8.size a ≤ S8x196x8.size a
  inb_S8x196x2048_S1x196x2048_4_0_0 : ∀ a, (![4, 0, 0] : Fin 3 → Nat) a + S1x196x2048.size a ≤ S8x196x2048.size a
  slices_S8x1024_o4_0_S1x1024 : S8x1024.Slices ![4, 0] S1x1024
  inb_S8x196x8_S1x196x8_4_0_0 : ∀ a, (![4, 0, 0] : Fin 3 → Nat) a + S1x196x8.size a ≤ S8x196x8.size a
  inb_S8x196x2048_S1x196x2048_5_0_0 : ∀ a, (![5, 0, 0] : Fin 3 → Nat) a + S1x196x2048.size a ≤ S8x196x2048.size a
  slices_S8x1024_o5_0_S1x1024 : S8x1024.Slices ![5, 0] S1x1024
  inb_S8x196x8_S1x196x8_5_0_0 : ∀ a, (![5, 0, 0] : Fin 3 → Nat) a + S1x196x8.size a ≤ S8x196x8.size a
  inb_S8x196x2048_S1x196x2048_6_0_0 : ∀ a, (![6, 0, 0] : Fin 3 → Nat) a + S1x196x2048.size a ≤ S8x196x2048.size a
  slices_S8x1024_o6_0_S1x1024 : S8x1024.Slices ![6, 0] S1x1024
  inb_S8x196x8_S1x196x8_6_0_0 : ∀ a, (![6, 0, 0] : Fin 3 → Nat) a + S1x196x8.size a ≤ S8x196x8.size a
  inb_S8x196x2048_S1x196x2048_7_0_0 : ∀ a, (![7, 0, 0] : Fin 3 → Nat) a + S1x196x2048.size a ≤ S8x196x2048.size a
  slices_S8x1024_o7_0_S1x1024 : S8x1024.Slices ![7, 0] S1x1024
  inb_S8x196x8_S1x196x8_7_0_0 : ∀ a, (![7, 0, 0] : Fin 3 → Nat) a + S1x196x8.size a ≤ S8x196x8.size a
  inb_S16x196x8_S1x196x8_0_0_0 : ∀ a, (![0, 0, 0] : Fin 3 → Nat) a + S1x196x8.size a ≤ S16x196x8.size a
  reduces_S196x8_S8 : S196x8.Reduces [0] S8
  inb_S16x196x2048_S1x196x2048_0_0_0 : ∀ a, (![0, 0, 0] : Fin 3 → Nat) a + S1x196x2048.size a ≤ S16x196x2048.size a
  transposes_S196x8_p1_0_S8x196 : S196x8.Transposes [1, 0] S8x196
  inb_S16x8x2048_S1x8x2048_0_0_0 : ∀ a, (![0, 0, 0] : Fin 3 → Nat) a + S1x8x2048.size a ≤ S16x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  inb_S16x196x8_S1x196x8_1_0_0 : ∀ a, (![1, 0, 0] : Fin 3 → Nat) a + S1x196x8.size a ≤ S16x196x8.size a
  inb_S16x196x2048_S1x196x2048_1_0_0 : ∀ a, (![1, 0, 0] : Fin 3 → Nat) a + S1x196x2048.size a ≤ S16x196x2048.size a
  inb_S16x8x2048_S1x8x2048_1_0_0 : ∀ a, (![1, 0, 0] : Fin 3 → Nat) a + S1x8x2048.size a ≤ S16x8x2048.size a
  inb_S16x196x8_S1x196x8_2_0_0 : ∀ a, (![2, 0, 0] : Fin 3 → Nat) a + S1x196x8.size a ≤ S16x196x8.size a
  inb_S16x196x2048_S1x196x2048_2_0_0 : ∀ a, (![2, 0, 0] : Fin 3 → Nat) a + S1x196x2048.size a ≤ S16x196x2048.size a
  inb_S16x8x2048_S1x8x2048_2_0_0 : ∀ a, (![2, 0, 0] : Fin 3 → Nat) a + S1x8x2048.size a ≤ S16x8x2048.size a
  inb_S16x196x8_S1x196x8_3_0_0 : ∀ a, (![3, 0, 0] : Fin 3 → Nat) a + S1x196x8.size a ≤ S16x196x8.size a
  inb_S16x196x2048_S1x196x2048_3_0_0 : ∀ a, (![3, 0, 0] : Fin 3 → Nat) a + S1x196x2048.size a ≤ S16x196x2048.size a
  inb_S16x8x2048_S1x8x2048_3_0_0 : ∀ a, (![3, 0, 0] : Fin 3 → Nat) a + S1x8x2048.size a ≤ S16x8x2048.size a
  inb_S16x196x8_S1x196x8_4_0_0 : ∀ a, (![4, 0, 0] : Fin 3 → Nat) a + S1x196x8.size a ≤ S16x196x8.size a
  inb_S16x196x2048_S1x196x2048_4_0_0 : ∀ a, (![4, 0, 0] : Fin 3 → Nat) a + S1x196x2048.size a ≤ S16x196x2048.size a
  inb_S16x8x2048_S1x8x2048_4_0_0 : ∀ a, (![4, 0, 0] : Fin 3 → Nat) a + S1x8x2048.size a ≤ S16x8x2048.size a
  inb_S16x196x8_S1x196x8_5_0_0 : ∀ a, (![5, 0, 0] : Fin 3 → Nat) a + S1x196x8.size a ≤ S16x196x8.size a
  inb_S16x196x2048_S1x196x2048_5_0_0 : ∀ a, (![5, 0, 0] : Fin 3 → Nat) a + S1x196x2048.size a ≤ S16x196x2048.size a
  inb_S16x8x2048_S1x8x2048_5_0_0 : ∀ a, (![5, 0, 0] : Fin 3 → Nat) a + S1x8x2048.size a ≤ S16x8x2048.size a
  inb_S16x196x8_S1x196x8_6_0_0 : ∀ a, (![6, 0, 0] : Fin 3 → Nat) a + S1x196x8.size a ≤ S16x196x8.size a
  inb_S16x196x2048_S1x196x2048_6_0_0 : ∀ a, (![6, 0, 0] : Fin 3 → Nat) a + S1x196x2048.size a ≤ S16x196x2048.size a
  inb_S16x8x2048_S1x8x2048_6_0_0 : ∀ a, (![6, 0, 0] : Fin 3 → Nat) a + S1x8x2048.size a ≤ S16x8x2048.size a
  inb_S16x196x8_S1x196x8_7_0_0 : ∀ a, (![7, 0, 0] : Fin 3 → Nat) a + S1x196x8.size a ≤ S16x196x8.size a
  inb_S16x196x2048_S1x196x2048_7_0_0 : ∀ a, (![7, 0, 0] : Fin 3 → Nat) a + S1x196x2048.size a ≤ S16x196x2048.size a
  inb_S16x8x2048_S1x8x2048_7_0_0 : ∀ a, (![7, 0, 0] : Fin 3 → Nat) a + S1x8x2048.size a ≤ S16x8x2048.size a
  inb_S16x196x8_S1x196x8_8_0_0 : ∀ a, (![8, 0, 0] : Fin 3 → Nat) a + S1x196x8.size a ≤ S16x196x8.size a
  inb_S16x196x2048_S1x196x2048_8_0_0 : ∀ a, (![8, 0, 0] : Fin 3 → Nat) a + S1x196x2048.size a ≤ S16x196x2048.size a
  inb_S16x8x2048_S1x8x2048_8_0_0 : ∀ a, (![8, 0, 0] : Fin 3 → Nat) a + S1x8x2048.size a ≤ S16x8x2048.size a
  inb_S16x196x8_S1x196x8_9_0_0 : ∀ a, (![9, 0, 0] : Fin 3 → Nat) a + S1x196x8.size a ≤ S16x196x8.size a
  inb_S16x196x2048_S1x196x2048_9_0_0 : ∀ a, (![9, 0, 0] : Fin 3 → Nat) a + S1x196x2048.size a ≤ S16x196x2048.size a
  inb_S16x8x2048_S1x8x2048_9_0_0 : ∀ a, (![9, 0, 0] : Fin 3 → Nat) a + S1x8x2048.size a ≤ S16x8x2048.size a
  inb_S16x196x8_S1x196x8_10_0_0 : ∀ a, (![10, 0, 0] : Fin 3 → Nat) a + S1x196x8.size a ≤ S16x196x8.size a
  inb_S16x196x2048_S1x196x2048_10_0_0 : ∀ a, (![10, 0, 0] : Fin 3 → Nat) a + S1x196x2048.size a ≤ S16x196x2048.size a
  inb_S16x8x2048_S1x8x2048_10_0_0 : ∀ a, (![10, 0, 0] : Fin 3 → Nat) a + S1x8x2048.size a ≤ S16x8x2048.size a
  inb_S16x196x8_S1x196x8_11_0_0 : ∀ a, (![11, 0, 0] : Fin 3 → Nat) a + S1x196x8.size a ≤ S16x196x8.size a
  inb_S16x196x2048_S1x196x2048_11_0_0 : ∀ a, (![11, 0, 0] : Fin 3 → Nat) a + S1x196x2048.size a ≤ S16x196x2048.size a
  inb_S16x8x2048_S1x8x2048_11_0_0 : ∀ a, (![11, 0, 0] : Fin 3 → Nat) a + S1x8x2048.size a ≤ S16x8x2048.size a
  inb_S16x196x8_S1x196x8_12_0_0 : ∀ a, (![12, 0, 0] : Fin 3 → Nat) a + S1x196x8.size a ≤ S16x196x8.size a
  inb_S16x196x2048_S1x196x2048_12_0_0 : ∀ a, (![12, 0, 0] : Fin 3 → Nat) a + S1x196x2048.size a ≤ S16x196x2048.size a
  inb_S16x8x2048_S1x8x2048_12_0_0 : ∀ a, (![12, 0, 0] : Fin 3 → Nat) a + S1x8x2048.size a ≤ S16x8x2048.size a
  inb_S16x196x8_S1x196x8_13_0_0 : ∀ a, (![13, 0, 0] : Fin 3 → Nat) a + S1x196x8.size a ≤ S16x196x8.size a
  inb_S16x196x2048_S1x196x2048_13_0_0 : ∀ a, (![13, 0, 0] : Fin 3 → Nat) a + S1x196x2048.size a ≤ S16x196x2048.size a
  inb_S16x8x2048_S1x8x2048_13_0_0 : ∀ a, (![13, 0, 0] : Fin 3 → Nat) a + S1x8x2048.size a ≤ S16x8x2048.size a
  inb_S16x196x8_S1x196x8_14_0_0 : ∀ a, (![14, 0, 0] : Fin 3 → Nat) a + S1x196x8.size a ≤ S16x196x8.size a
  inb_S16x196x2048_S1x196x2048_14_0_0 : ∀ a, (![14, 0, 0] : Fin 3 → Nat) a + S1x196x2048.size a ≤ S16x196x2048.size a
  inb_S16x8x2048_S1x8x2048_14_0_0 : ∀ a, (![14, 0, 0] : Fin 3 → Nat) a + S1x8x2048.size a ≤ S16x8x2048.size a
  inb_S16x196x8_S1x196x8_15_0_0 : ∀ a, (![15, 0, 0] : Fin 3 → Nat) a + S1x196x8.size a ≤ S16x196x8.size a
  inb_S16x196x2048_S1x196x2048_15_0_0 : ∀ a, (![15, 0, 0] : Fin 3 → Nat) a + S1x196x2048.size a ≤ S16x196x2048.size a
  inb_S16x8x2048_S1x8x2048_15_0_0 : ∀ a, (![15, 0, 0] : Fin 3 → Nat) a + S1x8x2048.size a ≤ S16x8x2048.size a
  shapeCasts_S256x8x2048_S256x16384 : S256x8x2048.ShapeCasts S256x16384
  dot_S8x1024_S1024x1024_S8x1024_1_0_0_1_n_n_wf : DotDims.WF S8x1024 S1024x1024 S8x1024 [1] [0] [0] [1] [] []
  dot_S196x2048_S2048x1024_S196x1024_1_0_0_1_n_n_wf : DotDims.WF S196x2048 S2048x1024 S196x1024 [1] [0] [0] [1] [] []
  dot_S196x1024_S1024x8_S196x8_1_0_0_1_n_n_wf : DotDims.WF S196x1024 S1024x8 S196x8 [1] [0] [0] [1] [] []
  dot_S8x196_S196x2048_S8x2048_1_0_0_1_n_n_wf : DotDims.WF S8x196 S196x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x196x2048.size a ≤ S256x196x2048.size a
  hwx0_0 : ∀ i : grid0.Coords, EltTy.bits .f32 = 32 ∨ (Rect.block (s := S256x196x2048) S8x196x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S256x1024.size a
  hwx0_1 : ∀ i : grid0.Coords, EltTy.bits .bf16 = 32 ∨ (Rect.block (s := S256x1024) S8x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S8x1024.size a
  hwx0_6 : ∀ i : grid0.Coords, EltTy.bits .bf16 = 32 ∨ (Rect.block (s := S8x1024) S8x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x196x8.size a ≤ S256x196x8.size a
  hwx0_8 : ∀ i : grid0.Coords, EltTy.bits .f32 = 32 ∨ (Rect.block (s := S256x196x8) S8x196x8.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x196x8.size a ≤ S256x196x8.size a
  hwx1_0 : ∀ i : grid1.Coords, EltTy.bits .f32 = 32 ∨ (Rect.block (s := S256x196x8) S16x196x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x196x2048.size a ≤ S256x196x2048.size a
  hwx1_1 : ∀ i : grid1.Coords, EltTy.bits .f32 = 32 ∨ (Rect.block (s := S256x196x2048) S16x196x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x8x2048.size a ≤ S256x8x2048.size a
  hwx1_2 : ∀ i : grid1.Coords, EltTy.bits .f32 = 32 ∨ (Rect.block (s := S256x8x2048) S16x8x2048.size (cc1_transform_2 i) (hinb1_2 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S196x2048_S2048x1024_S196x1024_1_0_0_1_n_n : DotDims S196x2048 S2048x1024 S196x1024 where
  lhsContracting := [1]
  rhsContracting := [0]
  lhsNonContracting := [0]
  rhsNonContracting := [1]
  lhsBatch := []
  rhsBatch := []
  wf := dot_S196x2048_S2048x1024_S196x1024_1_0_0_1_n_n_wf
def dot_S196x1024_S1024x8_S196x8_1_0_0_1_n_n : DotDims S196x1024 S1024x8 S196x8 where
  lhsContracting := [1]
  rhsContracting := [0]
  lhsNonContracting := [0]
  rhsNonContracting := [1]
  lhsBatch := []
  rhsBatch := []
  wf := dot_S196x1024_S1024x8_S196x8_1_0_0_1_n_n_wf
def dot_S8x196_S196x2048_S8x2048_1_0_0_1_n_n : DotDims S8x196 S196x2048 S8x2048 where
  lhsContracting := [1]
  rhsContracting := [0]
  lhsNonContracting := [0]
  rhsNonContracting := [1]
  lhsBatch := []
  rhsBatch := []
  wf := dot_S8x196_S196x2048_S8x2048_1_0_0_1_n_n_wf

abbrev win0_0 : Pipeline.Window sig grid0 :=
  Pipeline.Window.ofSpec (Memref.whole main_arg0) S8x196x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S8x196x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4) S16x196x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16x196x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x8x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x196x2048 : Shape := ⟨3, ![256, 196, 2048]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S8x1024 : Shape := ⟨2, ![8, 1024]⟩
abbrev S8 : Shape := ⟨1, ![8]⟩
abbrev S1x1024 : Shape := ⟨2, ![1, 1024]⟩
abbrev S256x1x1024 : Shape := ⟨3, ![256, 1, 1024]⟩
abbrev S256x196x1024 : Shape := ⟨3, ![256, 196, 1024]⟩
abbrev S1x1x1024 : Shape := ⟨3, ![1, 1, 1024]⟩
abbrev S256x196x8 : Shape := ⟨3, ![256, 196, 8]⟩
abbrev S1x1x8 : Shape := ⟨3, ![1, 1, 8]⟩
abbrev S_ : Shape := ⟨0, ![]⟩
abbrev S256x8 : Shape := ⟨2, ![256, 8]⟩
abbrev S256x1x8 : Shape := ⟨3, ![256, 1, 8]⟩
abbrev S256x8x2048 : Shape := ⟨3, ![256, 8, 2048]⟩
abbrev S256x16384 : Shape := ⟨2, ![256, 16384]⟩

abbrev nBuf : Space → Nat
  | .hbm => 41
  | .vmem => 0
  | .smem => 0
  | _ => 0

abbrev bufTy : (tb : Table) → Fin (tcTables nBuf tb) → BufTy
  | .hbm, ⟨0, _⟩ => ⟨S256x196x2048, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x1024, .f32⟩
  | .hbm, ⟨7, _⟩ => ⟨S8, .f32⟩
  | .hbm, ⟨8, _⟩ => ⟨S1024x1024, .f32⟩
  | .hbm, ⟨9, _⟩ => ⟨S256x1024, .f32⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S256x1x1024, .f32⟩
  | .hbm, ⟨14, _⟩ => ⟨S256x196x1024, .f32⟩
  | .hbm, ⟨15, _⟩ => ⟨S1x1x1024, .f32⟩
  | .hbm, ⟨16, _⟩ => ⟨S256x196x1024, .f32⟩
  | .hbm, ⟨17, _⟩ => ⟨S256x196x1024, .f32⟩
  | .hbm, ⟨18, _⟩ => ⟨S256x196x1024, .f32⟩
  | .hbm, ⟨19, _⟩ => ⟨S256x196x1024, .f32⟩
  | .hbm, ⟨20, _⟩ => ⟨S256x196x1024, .f32⟩
  | .hbm, ⟨21, _⟩ => ⟨S256x196x8, .f32⟩
  | .hbm, ⟨22, _⟩ => ⟨S1x1x8, .f32⟩
  | .hbm, ⟨23, _⟩ => ⟨S256x196x8, .f32⟩
  | .hbm, ⟨24, _⟩ => ⟨S256x196x8, .f32⟩
  | .hbm, ⟨25, _⟩ => ⟨S_, .f32⟩
  | .hbm, ⟨26, _⟩ => ⟨S256x8, .f32⟩
  | .hbm, ⟨27, _⟩ => ⟨S_, .f32⟩
  | .hbm, ⟨28, _⟩ => ⟨S256x8, .f32⟩
  | .hbm, ⟨29, _⟩ => ⟨S256x8, .f32⟩
  | .hbm, ⟨30, _⟩ => ⟨S256x1x8, .f32⟩
  | .hbm, ⟨31, _⟩ => ⟨S256x196x8, .f32⟩
  | .hbm, ⟨32, _⟩ => ⟨S256x196x8, .f32⟩
  | .hbm, ⟨33, _⟩ => ⟨S256x196x8, .f32⟩
  | .hbm, ⟨34, _⟩ => ⟨S_, .f32⟩
  | .hbm, ⟨35, _⟩ => ⟨S256x8, .f32⟩
  | .hbm, ⟨36, _⟩ => ⟨S256x1x8, .f32⟩
  | .hbm, ⟨37, _⟩ => ⟨S256x196x8, .f32⟩
  | .hbm, ⟨38, _⟩ => ⟨S256x196x8, .f32⟩
  | .hbm, ⟨39, _⟩ => ⟨S256x8x2048, .f32⟩
  | .hbm, ⟨40, _⟩ => ⟨S256x16384, .f32⟩
  | _, _ => ⟨S256x196x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S1024_S1x1x1024_2 : S1024.BroadcastsInDim S1x1x1024 (![2] : Fin 1 → Fin S1x1x1024.rank)
  bcast_S1x1x1024_S256x196x1024_0_1_2 : S1x1x1024.BroadcastsInDim S256x196x1024 (![0, 1, 2] : Fin 3 → Fin S256x196x1024.rank)
  bcast_S256x1x1024_S256x196x1024_0_1_2 : S256x1x1024.BroadcastsInDim S256x196x1024 (![0, 1, 2] : Fin 3 → Fin S256x196x1024.rank)
  bcast_S8_S1x1x8_2 : S8.BroadcastsInDim S1x1x8 (![2] : Fin 1 → Fin S1x1x8.rank)
  bcast_S1x1x8_S256x196x8_0_1_2 : S1x1x8.BroadcastsInDim S256x196x8 (![0, 1, 2] : Fin 3 → Fin S256x196x8.rank)
  reducesTo_S256x196x8_S256x8_d1 : S256x196x8.ReducesTo [1] S256x8
  h_S_ : 0 < S_.numel
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x1x8_S256x196x8_0_1_2 : S256x1x8.BroadcastsInDim S256x196x8 (![0, 1, 2] : Fin 3 → Fin S256x196x8.rank)
  shapeCasts_S256x8x2048_S256x16384 : S256x8x2048.ShapeCasts S256x16384
  dot_S256x1024_S1024x1024_S256x1024_1_0_0_1_n_n_wf : DotDims.WF S256x1024 S1024x1024 S256x1024 [1] [0] [0] [1] [] []
  dot_S256x196x2048_S1024x2048_S256x196x1024_2_1_01_0_n_n_wf : DotDims.WF S256x196x2048 S1024x2048 S256x196x1024 [2] [1] [0, 1] [0] [] []
  dot_S256x196x1024_S8x1024_S256x196x8_2_1_01_0_n_n_wf : DotDims.WF S256x196x1024 S8x1024 S256x196x8 [2] [1] [0, 1] [0] [] []
  dot_S256x196x8_S256x196x2048_S256x8x2048_1_1_2_2_0_0_wf : DotDims.WF S256x196x8 S256x196x2048 S256x8x2048 [1] [1] [2] [2] [0] [0]

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x196x2048_S1024x2048_S256x196x1024_2_1_01_0_n_n : DotDims S256x196x2048 S1024x2048 S256x196x1024 where
  lhsContracting := [2]
  rhsContracting := [1]
  lhsNonContracting := [0, 1]
  rhsNonContracting := [0]
  lhsBatch := []
  rhsBatch := []
  wf := dot_S256x196x2048_S1024x2048_S256x196x1024_2_1_01_0_n_n_wf
def dot_S256x196x1024_S8x1024_S256x196x8_2_1_01_0_n_n : DotDims S256x196x1024 S8x1024 S256x196x8 where
  lhsContracting := [2]
  rhsContracting := [1]
  lhsNonContracting := [0, 1]
  rhsNonContracting := [0]
  lhsBatch := []
  rhsBatch := []
  wf := dot_S256x196x1024_S8x1024_S256x196x8_2_1_01_0_n_n_wf
def dot_S256x196x8_S256x196x2048_S256x8x2048_1_1_2_2_0_0 : DotDims S256x196x8 S256x196x2048 S256x8x2048 where
  lhsContracting := [1]
  rhsContracting := [1]
  lhsNonContracting := [2]
  rhsNonContracting := [2]
  lhsBatch := [0]
  rhsBatch := [0]
  wf := dot_S256x196x8_S256x196x2048_S256x8x2048_1_1_2_2_0_0_wf

class Facts : Prop extends Facts₀ where

variable [Facts]
-- ==== Proof.Spec.lean ====
/-
  Additive attention over the extended reals, index by index.

  For a batch entry b, a region n and a feature e the hidden pre-activation is the projected query plus the projected
  context, each a sum of products plus a bias. A logit is the sum over the features of the hyperbolic tangent of the
  hidden pre-activation times an output weight, plus a bias. Over the regions a column of logits is turned into weights
  by the softmax as it is computed — the exponential of the logit minus the column's maximum, over the sum of those
  exponentials — and a glimpse is the weighted sum of a column of the context. Every sum is a finite sum in the
  extended reals, where addition is commutative and associative, so no order of summation is fixed and no input need
  be finite. The row functions take the rows they depend on as functions of a position, so that a row of a block and
  the same row of the whole array give the same value by definition.
-/
import Idealize.ShloMosaic.Lib.ValueIdx
import Idealize.ShloMosaic.PureOps.Ideal

noncomputable section

namespace Cert.Attn

open Idealize.ShloMosaic Idealize.ShloMosaic.ValueIdx
open scoped BigOperators

variable {B N C Q E G : Nat}

/-- Minus infinity as an f32 word read at the exact values. -/
abbrev negInf : EReal := Ideal.ofBits .f32 0xFF800000#32

/-- A row x projected: entry e of x · Wᵀ + bias. -/
def proj (x : Fin C → EReal) (W : (⟨2, ![E, C]⟩ : Shape).Idx → EReal) (bias : (⟨1, ![E]⟩ : Shape).Idx → EReal)
    (e : Fin E) : EReal :=
  (∑ k : Fin C, x k * W (ix2 e k)) + bias (ix1 e)

/-- One logit from a row of hidden pre-activations: Σₑ tanh(hid e) · Wo (g, e) + bo g. -/
def logitOf (hid : Fin E → EReal) (Wo : (⟨2, ![G, E]⟩ : Shape).Idx → EReal)
    (bo : (⟨1, ![G]⟩ : Shape).Idx → EReal) (g : Fin G) : EReal :=
  (∑ e : Fin E, Ideal.tanh (hid e) * Wo (ix2 g e)) + bo (ix1 g)

/-- The hidden pre-activations of a query row and a context row. -/
def hidden (qx : Fin Q → EReal) (cx : Fin C → EReal) (Wq : (⟨2, ![E, Q]⟩ : Shape).Idx → EReal)
    (bq : (⟨1, ![E]⟩ : Shape).Idx → EReal) (Wc : (⟨2, ![E, C]⟩ : Shape).Idx → EReal)
    (bc : (⟨1, ![E]⟩ : Shape).Idx → EReal) (e : Fin E) : EReal :=
  proj qx Wq bq e + proj cx Wc bc e

/-- The array of logits: entry (b, n, g) from query row b and context row (b, n). -/
def logits (ctx : (⟨3, ![B, N, C]⟩ : Shape).Idx → EReal) (q : (⟨2, ![B, Q]⟩ : Shape).Idx → EReal)
    (Wq : (⟨2, ![E, Q]⟩ : Shape).Idx → EReal) (bq : (⟨1, ![E]⟩ : Shape).Idx → EReal)
    (Wc : (⟨2, ![E, C]⟩ : Shape).Idx → EReal) (bc : (⟨1, ![E]⟩ : Shape).Idx → EReal)
    (Wo : (⟨2, ![G, E]⟩ : Shape).Idx → EReal) (bo : (⟨1, ![G]⟩ : Shape).Idx → EReal) :
    (⟨3, ![B, N, G]⟩ : Shape).Idx → EReal :=
  fun i => logitOf (hidden (fun k => q (ix2 (i 0) k)) (fun k => ctx (ix3 (i 0) (i 1) k)) Wq bq Wc bc) Wo bo (i 2)

theorem logits_ix3 (ctx : (⟨3, ![B, N, C]⟩ : Shape).Idx → EReal) (q : (⟨2, ![B, Q]⟩ : Shape).Idx → EReal)
    (Wq : (⟨2, ![E, Q]⟩ : Shape).Idx → EReal) (bq : (⟨1, ![E]⟩ : Shape).Idx → EReal)
    (Wc : (⟨2, ![E, C]⟩ : Shape).Idx → EReal) (bc : (⟨1, ![E]⟩ : Shape).Idx → EReal)
    (Wo : (⟨2, ![G, E]⟩ : Shape).Idx → EReal) (bo : (⟨1, ![G]⟩ : Shape).Idx → EReal)
    (b : Fin B) (n : Fin N) (g : Fin G) :
    logits ctx q Wq bq Wc bc Wo bo (ix3 b n g)
      = logitOf (hidden (fun k => q (ix2 b k)) (fun k => ctx (ix3 b n k)) Wq bq Wc bc) Wo bo g := rfl

/-- The maximum of a column of logits, folded from minus infinity and then capped below by it again, as both programs
    compute it. -/
def colMax (f : Fin N → EReal) : EReal :=
  max negInf ((Finset.univ : Finset (Fin N)).fold max negInf f)

/-- The exponential of a logit less its column's maximum. -/
def expo (f : Fin N → EReal) (n : Fin N) : EReal := Ideal.exp (f n - colMax f)

/-- The softmax weight of position n in the column. -/
def weight (f : Fin N → EReal) (n : Fin N) : EReal := Ideal.div (expo f n) (∑ n' : Fin N, expo f n')

/-- A column x weighted by the softmax of the column f of logits. -/
def glimpseOf (f : Fin N → EReal) (x : Fin N → EReal) : EReal := ∑ n : Fin N, weight f n * x n

/-- The array of glimpses: entry (b, g, c) from column (b, ·, g) of the logits and column (b, ·, c) of the context. -/
def glimpse (A : (⟨3, ![B, N, G]⟩ : Shape).Idx → EReal) (ctx : (⟨3, ![B, N, C]⟩ : Shape).Idx → EReal) :
    (⟨3, ![B, G, C]⟩ : Shape).Idx → EReal :=
  fun i => glimpseOf (fun n => A (ix3 (i 0) n (i 1))) (fun n => ctx (ix3 (i 0) n (i 2)))

theorem glimpse_ix3 (A : (⟨3, ![B, N, G]⟩ : Shape).Idx → EReal) (ctx : (⟨3, ![B, N, C]⟩ : Shape).Idx → EReal)
    (b : Fin B) (g : Fin G) (c : Fin C) :
    glimpse A ctx (ix3 b g c) = glimpseOf (fun n => A (ix3 b n g)) (fun n => ctx (ix3 b n c)) := rfl

end Cert.Attn

end
-- ==== Proof.RefSide.lean ====
/-
  The reference program's stages are the attention functions, index by index.

  Each stage of the reference is read at an index through the generated stage lemmas: a product of matrices as the sum
  over the contracted position, a broadcast at the coordinate it keeps, a pointwise operation at the same index. The
  column maximum is the fold of max from minus infinity over the regions.
-/
import proofs.«119279_j49658411876662_1_alg».proof.Proof.Gen.ReferenceIdeal.Read
import proofs.«119279_j49658411876662_1_alg».proof.Proof.Spec
import Idealize.ShloMosaic.PureOps.Ideal.Laws

noncomputable section

namespace Cert.ReferenceIdeal.RefValue

open Cert.ReferenceIdeal Cert.ReferenceIdeal.Gen Cert.ReferenceIdeal.Read Cert.Attn
open Idealize.ShloMosaic Idealize.ShloMosaic.TcCoe Idealize.ShloMosaic.ValueIdx
open scoped BigOperators

/-- Two indices with the same coordinates. -/
macro "same_idx" : tactic => `(tactic| (funext a; apply Fin.ext; fin_cases a <;> rfl))

variable (x0 : (⟨S256x196x2048, .f32⟩ : BufTy).Contents (Elt Ideal)) (x1 : (⟨S256x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x2048, .f32⟩ : BufTy).Contents (Elt Ideal)) (x5 : (⟨S1024, .f32⟩ : BufTy).Contents (Elt Ideal))
  (x6 : (⟨S8x1024, .f32⟩ : BufTy).Contents (Elt Ideal)) (x7 : (⟨S8, .f32⟩ : BufTy).Contents (Elt Ideal))

/-- The query projection stage at (b, e). -/
theorem v4_at (b : Fin 256) (e : Fin 1024) :
    val_main_v4 (F := Ideal) x1 x2 x3 (ix2 b e) = proj (fun k => x1 (ix2 b k)) x2 x3 e := by
  rw [val_main_v4_apply, val_main_v1_apply, val_main_v3_apply, val_main_v2_apply]
  refine congrArg₂ (· + ·) (Finset.sum_congr rfl fun k _ => ?_) (congrArg x3 (by same_idx))
  rw [val_main_v0_apply]
  exact congrArg₂ (· * ·) (congrArg x1 (by same_idx)) (congrArg x2 (by same_idx))

/-- The context projection stage at (b, n, e). -/
theorem v9_at (b : Fin 256) (n : Fin 196) (e : Fin 1024) :
    val_main_v9 (F := Ideal) x0 x4 x5 (ix3 b n e) = proj (fun k => x0 (ix3 b n k)) x4 x5 e := by
  rw [val_main_v9_apply, val_main_v6_apply, val_main_v8_apply, val_main_v7_apply]
  refine congrArg₂ (· + ·) (Finset.sum_congr rfl fun k _ => ?_) (congrArg x5 (by same_idx))
  exact congrArg₂ (· * ·) (congrArg x0 (by same_idx)) (congrArg x4 (by same_idx))

/-- The hidden activation stage at (b, n, e). -/
theorem v12_at (b : Fin 256) (n : Fin 196) (e : Fin 1024) :
    val_main_v12 (F := Ideal) x0 x1 x2 x3 x4 x5 (ix3 b n e)
      = Ideal.tanh (hidden (fun k => x1 (ix2 b k)) (fun k => x0 (ix3 b n k)) x2 x3 x4 x5 e) := by
  rw [val_main_v12_apply, val_main_v11_apply, val_main_v10_apply, val_main_v5_apply]
  rw [show idx_main_v5 (idx_main_v10 (ix3 b n e)) = ix2 b e from by same_idx, v4_at, v9_at]
  rfl

/-- The logits stage is the array of logits. -/
theorem v16_eq : val_main_v16 (F := Ideal) x0 x1 x2 x3 x4 x5 x6 x7 = logits x0 x1 x2 x3 x4 x5 x6 x7 := by
  funext i
  obtain ⟨b, n, g, rfl⟩ : ∃ (b : Fin 256) (n : Fin 196) (g : Fin 8), i = ix3 b n g := ⟨i 0, i 1, i 2, eq_ix3 i⟩
  rw [logits_ix3, val_main_v16_apply, val_main_v13_apply, val_main_v15_apply, val_main_v14_apply]
  refine congrArg₂ (· + ·) (Finset.sum_congr rfl fun k _ => ?_) (congrArg x7 (by same_idx))
  rw [show lidx_main_v13 (ix3 b n g) k = ix3 b n k from by same_idx, v12_at]
  exact congrArg₂ (· * ·) rfl (congrArg x6 (by same_idx))

/-- The reduced index (b, g) with region n put back is (b, n, g). -/
theorem lift_col (h : S256x196x8.Reduces [1] S256x8) (b : Fin 256) (g : Fin 8) (n : Fin (S256x196x8.size 1)) :
    h.lift (ix2 b g) n = ix3 b (⟨n.val, n.isLt⟩ : Fin 196) g := by
  funext a; apply Fin.ext; fin_cases a <;> rfl

/-- The capped column maximum stage at (b, g). -/
theorem v19_at (b : Fin 256) (g : Fin 8) :
    val_main_v19 (F := Ideal) x0 x1 x2 x3 x4 x5 x6 x7 (ix2 b g)
      = colMax (fun n : Fin 196 => val_main_v16 (F := Ideal) x0 x1 x2 x3 x4 x5 x6 x7 (ix3 b n g)) := by
  rw [val_main_v19_apply, val_main_v18_apply, val_main_cst_0_apply]
  unfold val_main_v17 colMax
  generalize val_main_v16 (F := Ideal) x0 x1 x2 x3 x4 x5 x6 x7 = A
  have hr := Host.reduce_eq_fold_single (FloatOps.maximumf (F := Ideal) (φ := .f32)) A (val_main_cst (F := Ideal))
    reducesTo_S256x196x8_S256x8_d1 (by decide) h_S_ (ix2 b g)
  refine congrArg₂ max rfl (hr.trans ?_)
  refine congrArg (fun f => Finset.fold max negInf f (Finset.univ : Finset (Fin 196))) ?_
  funext n
  exact congrArg A (lift_col _ b g n)

/-- The exponential stage at (b, n, g). -/
theorem v23_at (b : Fin 256) (n : Fin 196) (g : Fin 8) :
    val_main_v23 (F := Ideal) x0 x1 x2 x3 x4 x5 x6 x7 (ix3 b n g)
      = expo (fun n : Fin 196 => val_main_v16 (F := Ideal) x0 x1 x2 x3 x4 x5 x6 x7 (ix3 b n g)) n := by
  rw [val_main_v23_apply, val_main_v22_apply, val_main_v21_apply, val_main_v20_apply]
  rw [show idx_main_v20 (idx_main_v21 (ix3 b n g)) = ix2 b g from by same_idx, v19_at]
  rfl

/-- The softmax stage at (b, n, g). -/
theorem v27_at (b : Fin 256) (n : Fin 196) (g : Fin 8) :
    val_main_v27 (F := Ideal) x0 x1 x2 x3 x4 x5 x6 x7 (ix3 b n g)
      = weight (fun n : Fin 196 => val_main_v16 (F := Ideal) x0 x1 x2 x3 x4 x5 x6 x7 (ix3 b n g)) n := by
  rw [val_main_v27_apply, val_main_v26_apply, val_main_v25_apply, val_main_v24_apply, val_main_cst_1_apply, v23_at]
  unfold weight
  refine congrArg₂ Ideal.div rfl ?_
  rw [Ideal.ofBits_def, Ideal.ofBits_zero_f32, zero_add]
  refine Finset.sum_congr rfl fun k _ => ?_
  rw [show idx_main_v24 (idx_main_v25 (idx_main_v26 (ix3 b n g))) k = ix3 b k g from by same_idx, v23_at]

/-- The glimpse stage is the array of glimpses of the logits stage. -/
theorem v28_eq : val_main_v28 (F := Ideal) x0 x1 x2 x3 x4 x5 x6 x7 = glimpse (logits x0 x1 x2 x3 x4 x5 x6 x7) x0 := by
  rw [← v16_eq]
  funext i
  obtain ⟨b, g, c, rfl⟩ : ∃ (b : Fin 256) (g : Fin 8) (c : Fin 2048), i = ix3 b g c := ⟨i 0, i 1, i 2, eq_ix3 i⟩
  rw [glimpse_ix3, val_main_v28_apply]
  unfold glimpseOf
  refine Finset.sum_congr rfl fun k _ => ?_
  rw [show lidx_main_v28 (ix3 b g c) k = ix3 b k g from by same_idx, v27_at]
  exact congrArg₂ (· * ·) rfl (congrArg x0 (by same_idx))

end Cert.ReferenceIdeal.RefValue

end
-- ==== Proof.KernelRun.lean ====
/-
  The idealized kernel's run with its result buffer named.

  The program is four host conversions, the logits region, the glimpse region and one host reshape. Its run is the
  run of those four segments in order; the buffers after each segment are a fold through the segments from the launch
  memory. The final state holds every unscoped buffer at the last fold, so the result buffer is the last fold at the
  result and the arguments are as launched.
-/
import proofs.«119279_j49658411876662_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last fold and the arguments as
    launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer after the run is the reshape of what the glimpse region leaves in its output array. -/
theorem W4_result (c : Dev nD) :
    W4 m ρ c (Proc.devRef .tc main_v6)
      = shapeCast S256x16384 ((dat1 (V2 m ρ) c).arrAt 2 cfg1.N) shapeCasts_S256x8x2048_S256x16384 := by
  rw [← W3_arr m ρ c 2]
  show StableHlo.after hostOps2 (W3 m ρ c) (Proc.devRef .tc main_v6) = _
  after_results
  rfl

end Cert.KernelIdeal.RunValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibRowSlice.lean ====
/-
  Consecutive rows sliced out of a matrix, read at an index.

  The unit-stride slice of `n` rows of an `a × b` matrix from row `off` on, all columns, reads, at `(k, q)`, the matrix
  at `(off + k, q)`. For any element type and any extents.
-/
import Idealize.ShloMosaic.Lib.Pipeline.Value
import Idealize.ShloMosaic.Lib.ValueIdx

noncomputable section

namespace Cert.Lib.RowSlice

open Idealize.ShloMosaic Idealize.ShloMosaic.ValueIdx

variable {a b n : Nat} {α : Type}

/-- The slice at `(k, q)` is the matrix at `(off + k, q)`. -/
theorem apply (W : (⟨2, ![a, b]⟩ : Shape).Idx → α) (off : Nat)
    (h : (⟨2, ![a, b]⟩ : Shape).Slices ![off, 0] ⟨2, ![n, b]⟩) (k : Fin n) (q : Fin b) (hk : off + k.val < a) :
    extractStridedSlice ⟨2, ![n, b]⟩ ![off, 0] W h (ix2 k q) = W (ix2 ⟨off + k.val, hk⟩ q) :=
  extractStridedSlice_apply ![off, 0] W h (ix2 k q) (ix2 ⟨off + k.val, hk⟩ q) fun ax => by
    match ax with
    | ⟨0, _⟩ => rfl
    | ⟨1, _⟩ => show q.val = 0 + q.val; rw [Nat.zero_add]

end Cert.Lib.RowSlice

end
-- ==== Proof.KernelRows.lean ====
/-
  What the two kernel bodies compute for one batch entry, read at an index at the exact values.

  The logits body, for one batch entry, multiplies the entry's context rows by the transposed context weights, adds the
  bias and the entry's row of the projected query, takes the hyperbolic tangent, multiplies by the transposed output
  weights and adds the output bias: entry (n, g) is the logit of the entry's query row and context row n. The glimpse
  body, for one batch entry, takes the softmax of each column of the entry's logits over the regions and multiplies
  the transposed weights by the entry's context rows: entry (g, c) is the glimpse of column g of the logits and column
  c of the context. A change of float format is the identity at the exact values, and a product into the zero
  accumulator is the sum over the contracted position.
-/
import proofs.«119279_j49658411876662_1_alg».proof.Proof.Gen.KernelIdeal.Skeleton
import proofs.«119279_j49658411876662_1_alg».proof.Proof.Spec
import proofs.«119279_j49658411876662_1_alg».proof.Proof.LibPlainDot
import proofs.«119279_j49658411876662_1_alg».proof.Proof.LibRowBroadcasts
import proofs.«119279_j49658411876662_1_alg».proof.Proof.LibUnitAxis
import proofs.«119279_j49658411876662_1_alg».proof.Proof.LibMergeRows
import proofs.«119279_j49658411876662_1_alg».proof.Proof.LibRowSlice
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Cert.Attn
open Idealize.ShloMosaic Idealize.ShloMosaic.TcCoe Idealize.ShloMosaic.ValueIdx
open scoped BigOperators

variable {F : FTy → Type} [FloatOps F]

/-! ## The softmax of the columns of a 196 × 8 matrix -/

/-- The column maxima, capped below by minus infinity, as the body computes them. -/
def colMaxima (v1 : FVec F S196x8 .f32) : FVec F S8 .f32 :=
  maximumf (broadcast S8 (Scalar.ofBits .f32 0xFF800000#32))
    (multiReduction .maximumf [0] S8 v1 0xFF800000#32 reduces_S196x8_S8 (.inl rfl) rfl)

/-- The exponentials of the entries less their column's maximum. -/
def colExps (v1 : FVec F S196x8 .f32) (mx : FVec F S1x8 .f32) : FVec F S196x8 .f32 :=
  exp (subf v1 (broadcastTo S196x8 mx broadcasts_S1x8_S196x8))

/-- The exponentials over their column sums. -/
def colNormalize (ex : FVec F S196x8 .f32) : FVec F S196x8 .f32 :=
  divf ex (broadcastTo S196x8 (shapeCast S1x8 (multiReduction .add [0] S8 ex 0x00000000#32 reduces_S196x8_S8 (.inl rfl) rfl)
    shapeCasts_S8_S1x8) broadcasts_S1x8_S196x8)

/-- The reduced index g with row n put back is (n, g). -/
theorem lift_row (h : S196x8.Reduces [0] S8) (g : Fin 8) (n : Fin (S196x8.size 0)) :
    h.lift (ix1 g) n = ix2 (⟨n.val, n.isLt⟩ : Fin 196) g := by
  funext a; apply Fin.ext; fin_cases a <;> rfl

theorem colMaxima_apply (v1 : FVec Ideal S196x8 .f32) (g : Fin 8) :
    colMaxima v1 (ix1 g) = colMax (fun n : Fin 196 => v1 (ix2 n g)) := by
  show max (Ideal.ofBits .f32 0xFF800000#32)
    (multiReduction .maximumf [0] S8 v1 0xFF800000#32 reduces_S196x8_S8 (.inl rfl) rfl (ix1 g)) = _
  unfold colMax
  refine congrArg₂ max rfl ((Ideal.multiReduction_maximumf_single v1 0xFF800000#32 reduces_S196x8_S8 (.inl rfl) rfl (ix1 g)).trans ?_)
  refine congrArg (fun f => Finset.fold max negInf f (Finset.univ : Finset (Fin 196))) ?_
  funext n
  exact congrArg v1 (lift_row _ g n)

theorem colExps_apply (v1 : FVec Ideal S196x8 .f32) (n : Fin 196) (g : Fin 8) :
    colExps v1 (shapeCast S1x8 (colMaxima v1) shapeCasts_S8_S1x8) (ix2 n g) = expo (fun n : Fin 196 => v1 (ix2 n g)) n := by
  show Ideal.exp (v1 (ix2 n g) - broadcastTo S196x8 (shapeCast S1x8 (colMaxima v1) shapeCasts_S8_S1x8) broadcasts_S1x8_S196x8 (ix2 n g)) = _
  rw [Cert.Lib.Rows.bcastRow_apply, Cert.Lib.MergeRows.row_apply, colMaxima_apply]
  rfl

theorem colNormalize_apply (ex : FVec Ideal S196x8 .f32) (n : Fin 196) (g : Fin 8) :
    colNormalize ex (ix2 n g) = Ideal.div (ex (ix2 n g)) (∑ n' : Fin 196, ex (ix2 n' g)) := by
  show Ideal.div (ex (ix2 n g)) (broadcastTo S196x8 (shapeCast S1x8 (multiReduction .add [0] S8 ex 0x00000000#32 reduces_S196x8_S8 (.inl rfl) rfl)
    shapeCasts_S8_S1x8) broadcasts_S1x8_S196x8 (ix2 n g)) = _
  rw [Cert.Lib.Rows.bcastRow_apply, Cert.Lib.MergeRows.row_apply]
  refine congrArg (Ideal.div _) ((Ideal.multiReduction_add_single ex 0x00000000#32 reduces_S196x8_S8 (.inl rfl) rfl (ix1 g)).trans ?_)
  refine Finset.sum_congr rfl fun k _ => ?_
  exact congrArg ex (lift_row _ g k)

/-- The softmax weights of the columns of a 196 × 8 matrix. -/
def colSoftmax (v1 : FVec F S196x8 .f32) : FVec F S196x8 .f32 :=
  colNormalize (colExps v1 (shapeCast S1x8 (colMaxima v1) shapeCasts_S8_S1x8))

theorem colSoftmax_apply (v1 : FVec Ideal S196x8 .f32) (n : Fin 196) (g : Fin 8) :
    colSoftmax v1 (ix2 n g) = weight (fun n : Fin 196 => v1 (ix2 n g)) n := by
  unfold colSoftmax weight
  rw [colNormalize_apply, colExps_apply]
  refine congrArg (Ideal.div _) (Finset.sum_congr rfl fun k _ => ?_)
  exact colExps_apply v1 k g

/-! ## The glimpse body for one batch entry -/

/-- The weights, transposed, times the context rows. -/
def weightedRows (w : FVec F S196x8 .f32) (cx : FVec F S196x2048 .f32) : FVec F S8x2048 .f32 :=
  matmul dot_S8x196_S196x2048_S8x2048_1_0_0_1_n_n none
    (transpose S8x196 [1, 0] (truncf .bf16 w bitsLt_bf16_f32) transposes_S196x8_p1_0_S8x196)
    (truncf .bf16 cx bitsLt_bf16_f32) (constant S8x2048 .f32 0x00000000#32)

theorem weightedRows_apply (w : FVec Ideal S196x8 .f32) (cx : FVec Ideal S196x2048 .f32) (g : Fin 8) (c : Fin 2048) :
    weightedRows w cx (ix2 g c) = ∑ n : Fin 196, w (ix2 n g) * cx (ix2 n c) := by
  unfold weightedRows
  refine (Cert.Lib.PlainDot.matmul_zero_apply dot_S8x196_S196x2048_S8x2048_1_0_0_1_n_n_wf none _ _ g c).trans ?_
  refine Finset.sum_congr rfl fun n _ => ?_
  refine congrArg₂ (· * ·) ?_ rfl
  exact Cert.Lib.MergeRows.transpose_apply (truncf .bf16 w bitsLt_bf16_f32) transposes_S196x8_p1_0_S8x196 g n

/-- The glimpse body's stored value for one batch entry, from the entry's logits and context rows. -/
def glimpseRow (a : Vec F S1x196x8 .f32) (cx : Vec F S1x196x2048 .f32) : FVec F S1x8x2048 .f32 :=
  shapeCast S1x8x2048
    (weightedRows (colSoftmax (shapeCast S196x8 a shapeCasts_S1x196x8_S196x8)) (shapeCast S196x2048 cx shapeCasts_S1x196x2048_S196x2048))
    shapeCasts_S8x2048_S1x8x2048

theorem glimpseRow_apply (a : Vec Ideal S1x196x8 .f32) (cx : Vec Ideal S1x196x2048 .f32) (u : Fin 1) (g : Fin 8) (c : Fin 2048) :
    glimpseRow a cx (ix3 u g c)
      = glimpseOf (fun n : Fin 196 => a (ix3 (0 : Fin 1) n g)) (fun n : Fin 196 => cx (ix3 (0 : Fin 1) n c)) := by
  unfold glimpseRow glimpseOf
  rw [Cert.Lib.UnitAxis.add_apply, weightedRows_apply]
  refine Finset.sum_congr rfl fun n _ => ?_
  rw [colSoftmax_apply, Cert.Lib.UnitAxis.drop_apply]
  refine congrArg₂ (· * ·) (congrArg (fun f => weight f n) ?_) rfl
  funext n'
  exact Cert.Lib.UnitAxis.drop_apply a shapeCasts_S1x196x8_S196x8 n' g

/-- Every stored value of the glimpse body is the row function of the blocks it loads. -/
theorem pay2_eq (a : Vec F S1x196x8 .f32) (cx : Vec F S1x196x2048 .f32) : k1_pay2 a cx = glimpseRow a cx := rfl
theorem pay1_eq (a : Vec F S1x196x8 .f32) (cx : Vec F S1x196x2048 .f32) : k1_pay1 a cx = glimpseRow a cx := rfl
theorem pay4_eq (a : Vec F S1x196x8 .f32) (cx : Vec F S1x196x2048 .f32) : k1_pay4 (k1_pay3 a) cx = glimpseRow a cx := rfl
theorem pay5_eq (a : Vec F S1x196x8 .f32) (cx : Vec F S1x196x2048 .f32) : k1_pay5 a cx = glimpseRow a cx := rfl
theorem pay8_eq (a : Vec F S1x196x8 .f32) (cx : Vec F S1x196x2048 .f32) : k1_pay8 (k1_pay6 a) (k1_pay7 a) cx = glimpseRow a cx := rfl
theorem pay9_eq (a : Vec F S1x196x8 .f32) (cx : Vec F S1x196x2048 .f32) : k1_pay9 a cx = glimpseRow a cx := rfl
theorem pay10_eq (a : Vec F S1x196x8 .f32) (cx : Vec F S1x196x2048 .f32) : k1_pay10 a cx = glimpseRow a cx := rfl
theorem pay12_eq (a : Vec F S1x196x8 .f32) (cx : Vec F S1x196x2048 .f32) : k1_pay12 (k1_pay11 a) cx = glimpseRow a cx := rfl
theorem pay13_eq (a : Vec F S1x196x8 .f32) (cx : Vec F S1x196x2048 .f32) : k1_pay13 a cx = glimpseRow a cx := rfl
theorem pay16_eq (a : Vec F S1x196x8 .f32) (cx : Vec F S1x196x2048 .f32) : k1_pay16 (k1_pay14 a) (k1_pay15 a) cx = glimpseRow a cx := rfl
theorem pay17_eq (a : Vec F S1x196x8 .f32) (cx : Vec F S1x196x2048 .f32) : k1_pay17 a cx = glimpseRow a cx := rfl
theorem pay18_eq (a : Vec F S1x196x8 .f32) (cx : Vec F S1x196x2048 .f32) : k1_pay18 a cx = glimpseRow a cx := rfl
theorem pay20_eq (a : Vec F S1x196x8 .f32) (cx : Vec F S1x196x2048 .f32) : k1_pay20 (k1_pay19 a) cx = glimpseRow a cx := rfl
theorem pay21_eq (a : Vec F S1x196x8 .f32) (cx : Vec F S1x196x2048 .f32) : k1_pay21 a cx = glimpseRow a cx := rfl
theorem pay24_eq (a : Vec F S1x196x8 .f32) (cx : Vec F S1x196x2048 .f32) : k1_pay24 (k1_pay22 a) (k1_pay23 a) cx = glimpseRow a cx := rfl
theorem pay25_eq (a : Vec F S1x196x8 .f32) (cx : Vec F S1x196x2048 .f32) : k1_pay25 a cx = glimpseRow a cx := rfl

end Cert.KernelIdeal.Rows

end
-- ==== Proof.LibDenseT.lean ====
/-
  A dense stage with the weights stored output-major, in a kernel body's spelling, read at an index.

  The body transposes the b × c weight matrix, multiplies the a × c input by it into a zero accumulator, and adds the
  length-b bias cast to a 1 × b row and broadcast down the a rows. At the exact values entry (p, q) is the sum over k of
  x (p, k) · W (q, k), plus bias q. Also the inverse of casting a vector to a row: a 1 × b row cast to a length-b vector
  reads, at q, the row at (0, q). For any extents and operand formats.
-/
import proofs.«119279_j49658411876662_1_alg».proof.Proof.LibPlainDot
import Idealize.ShloMosaic.Lib.Pipeline.Value
import Idealize.ShloMosaic.Lib.ValueIdx
import Idealize.ShloMosaic.PureOps.Ideal.Laws

noncomputable section

namespace Cert.Lib.DenseT

open Idealize.ShloMosaic Idealize.ShloMosaic.ValueIdx
open scoped BigOperators

variable {a c b : Nat}

/-- The dense stage at (p, q): Σₖ x (p, k) · W (q, k) + bias q. -/
theorem apply {φx φw : FTy}
    (wf : DotDims.WF ⟨2, ![a, c]⟩ ⟨2, ![c, b]⟩ ⟨2, ![a, b]⟩ [1] [0] [0] [1] [] [])
    (ht : (⟨2, ![b, c]⟩ : Shape).Transposes [1, 0] ⟨2, ![c, b]⟩)
    (hc : (⟨1, ![b]⟩ : Shape).ShapeCasts ⟨2, ![1, b]⟩) (hb : (⟨2, ![1, b]⟩ : Shape).Broadcasts ⟨2, ![a, b]⟩)
    (x : FVec Ideal ⟨2, ![a, c]⟩ φx) (W : FVec Ideal ⟨2, ![b, c]⟩ φw) (bias : FVec Ideal ⟨1, ![b]⟩ .f32)
    (p : Fin a) (q : Fin b) :
    addf (matmul (Cert.Lib.PlainDot.dims wf) none x (transpose ⟨2, ![c, b]⟩ [1, 0] W ht) (constant ⟨2, ![a, b]⟩ .f32 0x00000000#32))
        (broadcastTo ⟨2, ![a, b]⟩ (shapeCast ⟨2, ![1, b]⟩ bias hc) hb) (ix2 p q)
      = (∑ k : Fin c, x (ix2 p k) * W (ix2 q k)) + bias (ix1 q) := by
  show matmul (Cert.Lib.PlainDot.dims wf) none x (transpose ⟨2, ![c, b]⟩ [1, 0] W ht) (constant ⟨2, ![a, b]⟩ .f32 0x00000000#32) (ix2 p q)
      + broadcastTo ⟨2, ![a, b]⟩ (shapeCast ⟨2, ![1, b]⟩ bias hc) hb (ix2 p q) = _
  refine congrArg₂ (· + ·) ?_ ?_
  · refine (Cert.Lib.PlainDot.matmul_zero_apply wf none x _ p q).trans ?_
    refine Finset.sum_congr rfl fun k _ => congrArg₂ (· * ·) rfl ?_
    exact Idealize.ShloMosaic.transpose_apply [1, 0] W ht (ix2 k q) (ix2 q k) fun ax => by
      match ax with
      | ⟨0, _⟩ => rfl
      | ⟨1, _⟩ => rfl
  · refine (broadcastTo_apply (shapeCast ⟨2, ![1, b]⟩ bias hc) hb (ix2 p q) (ix2 (0 : Fin 1) q) fun ax => ?_).trans ?_
    · match ax with
      | ⟨0, _⟩ =>
        show (0 : Nat) = if (1 : Nat) = 1 then 0 else p.val
        rw [if_pos rfl]
      | ⟨1, _⟩ =>
        show q.val = if b = 1 then 0 else q.val
        split
        · have := q.isLt; omega
        · rfl
    · exact shapeCast_apply bias hc _ _ (by
        rw [Shape.rowMajor_val_two, Shape.rowMajor_val_one]
        show q.val = 0 * b + q.val
        omega)

/-- A 1 × b row cast to a length-b vector reads, at q, the row at (0, q). -/
theorem unrow_apply {α : Type} (v : (⟨2, ![1, b]⟩ : Shape).Idx → α)
    (h : (⟨2, ![1, b]⟩ : Shape).ShapeCasts ⟨1, ![b]⟩) (q : Fin b) :
    shapeCast ⟨1, ![b]⟩ v h (ix1 q) = v (ix2 (0 : Fin 1) q) :=
  shapeCast_apply v h _ _ (by
    rw [Shape.rowMajor_val_two, Shape.rowMajor_val_one]
    first
      | (show 0 * b + q.val = q.val; omega)
      | (show q.val = 0 * b + q.val; omega))

end Cert.Lib.DenseT

end
-- ==== Proof.KernelLogitRows.lean ====
/-
  What the logits body computes for one batch entry, read at an index at the exact values.

  A dense stage in the body's spelling — the weights transposed, a product into the zero accumulator, the bias cast to
  a row and broadcast down the rows — is, at (p, q), the projection of row p. The body projects the block's query rows
  once; for each batch entry it projects the entry's context rows, adds the entry's projected query row to every
  region's row, takes the hyperbolic tangent and projects onto the glimpses. Entry (n, g) of what it stores is the
  logit of the entry's query row and context row n.
-/
import proofs.«119279_j49658411876662_1_alg».proof.Proof.Gen.KernelIdeal.Skeleton
import proofs.«119279_j49658411876662_1_alg».proof.Proof.Spec
import proofs.«119279_j49658411876662_1_alg».proof.Proof.LibDenseT
import proofs.«119279_j49658411876662_1_alg».proof.Proof.LibRowBroadcasts
import proofs.«119279_j49658411876662_1_alg».proof.Proof.LibUnitAxis
import proofs.«119279_j49658411876662_1_alg».proof.Proof.LibMergeRows
import proofs.«119279_j49658411876662_1_alg».proof.Proof.LibRowSlice
import Idealize.ShloMosaic.Lib.Pipeline.Value
import Idealize.ShloMosaic.Lib.ValueIdx
import Idealize.ShloMosaic.PureOps.Ideal.Laws

noncomputable section

namespace Cert.KernelIdeal.LogitRows

open Cert.KernelIdeal Cert.KernelIdeal.Gen Cert.Attn
open Idealize.ShloMosaic Idealize.ShloMosaic.TcCoe Idealize.ShloMosaic.ValueIdx
open scoped BigOperators

variable {F : FTy → Type} [FloatOps F]

/-! ## The stages of the logits body for one batch entry -/

/-- The entry's context rows projected. -/
def ctxProj (v3 : FVec F S1024x2048 .bf16) (v7 : Vec F S1024 .f32) (xs : FVec F S196x2048 .f32) : FVec F S196x1024 .f32 :=
  addf (matmul dot_S196x2048_S2048x1024_S196x1024_1_0_0_1_n_n none (truncf .bf16 xs bitsLt_bf16_f32)
      (transpose S2048x1024 [1, 0] v3 transposes_S1024x2048_p1_0_S2048x1024) (constant S196x1024 .f32 0x00000000#32))
    (broadcastTo S196x1024 (shapeCast S1x1024 v7 shapeCasts_S1024_S1x1024) broadcasts_S1x1024_S196x1024)

/-- The hidden activations: the entry's projected query row added to every region's row, then tanh. -/
def hiddenAct (qrow : FVec F S1x1024 .f32) (cp : FVec F S196x1024 .f32) : FVec F S196x1024 .f32 :=
  tanh (addf (broadcastTo S196x1024 (shapeCast S1x1024 (shapeCast S1024 qrow shapeCasts_S1x1024_S1024) shapeCasts_S1024_S1x1024)
    broadcasts_S1x1024_S196x1024) cp)

/-- The hidden activations projected onto the glimpses. -/
def outProj (v5 : FVec F S8x1024 .bf16) (v8 : Vec F S8 .f32) (h : FVec F S196x1024 .f32) : FVec F S196x8 .f32 :=
  addf (matmul dot_S196x1024_S1024x8_S196x8_1_0_0_1_n_n none (truncf .bf16 h bitsLt_bf16_f32)
      (transpose S1024x8 [1, 0] v5 transposes_S8x1024_p1_0_S1024x8) (constant S196x8 .f32 0x00000000#32))
    (broadcastTo S196x8 (shapeCast S1x8 v8 shapeCasts_S8_S1x8) broadcasts_S1x8_S196x8)

/-- The logits body's stored value for one batch entry. -/
def rowLogits (v3 : FVec F S1024x2048 .bf16) (v5 : FVec F S8x1024 .bf16) (v7 : Vec F S1024 .f32) (v8 : Vec F S8 .f32)
    (qrow : FVec F S1x1024 .f32) (x : Vec F S1x196x2048 .f32) : FVec F S1x196x8 .f32 :=
  shapeCast S1x196x8
    (outProj v5 v8 (hiddenAct qrow (ctxProj v3 v7 (shapeCast S196x2048 x shapeCasts_S1x196x2048_S196x2048))))
    shapeCasts_S196x8_S1x196x8

theorem ctxProj_apply (v3 : FVec Ideal S1024x2048 .bf16) (v7 : Vec Ideal S1024 .f32) (xs : FVec Ideal S196x2048 .f32)
    (n : Fin 196) (e : Fin 1024) : ctxProj v3 v7 xs (ix2 n e) = proj (fun k : Fin 2048 => xs (ix2 n k)) v3 v7 e :=
  Cert.Lib.DenseT.apply dot_S196x2048_S2048x1024_S196x1024_1_0_0_1_n_n_wf transposes_S1024x2048_p1_0_S2048x1024
    shapeCasts_S1024_S1x1024 broadcasts_S1x1024_S196x1024 (truncf .bf16 xs bitsLt_bf16_f32) v3 v7 n e

theorem hiddenAct_apply (qrow : FVec Ideal S1x1024 .f32) (cp : FVec Ideal S196x1024 .f32) (n : Fin 196) (e : Fin 1024) :
    hiddenAct qrow cp (ix2 n e) = Ideal.tanh (qrow (ix2 (0 : Fin 1) e) + cp (ix2 n e)) := by
  show Ideal.tanh (broadcastTo S196x1024 (shapeCast S1x1024 (shapeCast S1024 qrow shapeCasts_S1x1024_S1024) shapeCasts_S1024_S1x1024)
    broadcasts_S1x1024_S196x1024 (ix2 n e) + cp (ix2 n e)) = _
  rw [Cert.Lib.Rows.bcastRow_apply, Cert.Lib.MergeRows.row_apply, Cert.Lib.DenseT.unrow_apply]

theorem outProj_apply (v5 : FVec Ideal S8x1024 .bf16) (v8 : Vec Ideal S8 .f32) (h : FVec Ideal S196x1024 .f32)
    (n : Fin 196) (g : Fin 8) : outProj v5 v8 h (ix2 n g) = proj (fun e : Fin 1024 => h (ix2 n e)) v5 v8 g :=
  Cert.Lib.DenseT.apply dot_S196x1024_S1024x8_S196x8_1_0_0_1_n_n_wf transposes_S8x1024_p1_0_S1024x8
    shapeCasts_S8_S1x8 broadcasts_S1x8_S196x8 (truncf .bf16 h bitsLt_bf16_f32) v5 v8 n g

/-- Entry (n, g) of the stored value: the logit of the projected query row and the entry's context row n. -/
theorem rowLogits_apply (v3 : FVec Ideal S1024x2048 .bf16) (v5 : FVec Ideal S8x1024 .bf16) (v7 : Vec Ideal S1024 .f32)
    (v8 : Vec Ideal S8 .f32) (qrow : FVec Ideal S1x1024 .f32) (x : Vec Ideal S1x196x2048 .f32)
    (u : Fin 1) (n : Fin 196) (g : Fin 8) :
    rowLogits v3 v5 v7 v8 qrow x (ix3 u n g)
      = logitOf (fun e : Fin 1024 => qrow (ix2 (0 : Fin 1) e) + proj (fun k : Fin 2048 => x (ix3 (0 : Fin 1) n k)) v3 v7 e) v5 v8 g := by
  unfold rowLogits
  rw [Cert.Lib.UnitAxis.add_apply, outProj_apply]
  unfold proj logitOf
  refine congrArg₂ (· + ·) (Finset.sum_congr rfl fun e _ => ?_) rfl
  refine congrArg₂ (· * ·) ?_ rfl
  beta_reduce
  rw [hiddenAct_apply, ctxProj_apply]
  refine congrArg (fun z => Ideal.tanh (qrow (ix2 (0 : Fin 1) e) + z)) ?_
  unfold proj
  refine congrArg₂ (· + ·) (Finset.sum_congr rfl fun k _ => ?_) rfl
  exact congrArg₂ (· * ·) (Cert.Lib.UnitAxis.drop_apply x shapeCasts_S1x196x2048_S196x2048 n k) rfl

/-- The block's query rows projected, at (t, e). -/
theorem queryProj_apply (a0 : Vec Ideal S1024x1024 .bf16) (a6 : Vec Ideal S1024 .f32) (a9 : Vec Ideal S8x1024 .bf16)
    (t : Fin 8) (e : Fin 1024) : k0_pay5 (F := Ideal) a0 a6 a9 (ix2 t e) = proj (fun k : Fin 1024 => a9 (ix2 t k)) a0 a6 e := by
  have h := Cert.Lib.DenseT.apply (φx := .bf16) (φw := .bf16) dot_S8x1024_S1024x1024_S8x1024_1_0_0_1_n_n_wf
    transposes_S1024x1024_p1_0_S1024x1024 shapeCasts_S1024_S1x1024 broadcasts_S1x1024_S8x1024
    (shapeCast S8x1024 a9 shapeCasts_S8x1024_S8x1024 : FVec Ideal S8x1024 .bf16)
    (shapeCast S1024x1024 a0 shapeCasts_S1024x1024_S1024x1024 : FVec Ideal S1024x1024 .bf16) a6 t e
  refine Eq.trans h ?_
  rw [shapeCast_self a9, shapeCast_self a0]
  rfl

/-- Every stored value of the logits body is the row function of the blocks it loads and the entry's projected query row. -/
theorem pay6_eq (a0 : Vec F S1024x1024 .bf16) (a2 : Vec F S1024x2048 .bf16) (a4 : Vec F S8x1024 .bf16) (a6 : Vec F S1024 .f32)
    (a7 : Vec F S1024 .f32) (a8 : Vec F S8 .f32) (a9 : Vec F S8x1024 .bf16) (x : Vec F S1x196x2048 .f32) :
    k0_pay6 a0 a2 a4 a6 a7 a8 a9 x
      = rowLogits (k0_pay3 a2) (k0_pay4 a4) a7 a8 (extractStridedSlice S1x1024 ![0, 0] (k0_pay5 a0 a6 a9) slices_S8x1024_o0_0_S1x1024) x := rfl
theorem pay7_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay7 v3 v5 v7 v8 v15 x = rowLogits v3 v5 v7 v8 (extractStridedSlice S1x1024 ![1, 0] v15 slices_S8x1024_o1_0_S1x1024) x := rfl
theorem pay9_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay9 (k0_pay8 v3 v5 v7 v8 v15 x) = rowLogits v3 v5 v7 v8 (extractStridedSlice S1x1024 ![2, 0] v15 slices_S8x1024_o2_0_S1x1024) x := rfl
theorem pay10_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay10 v3 v5 v7 v8 v15 x = rowLogits v3 v5 v7 v8 (extractStridedSlice S1x1024 ![3, 0] v15 slices_S8x1024_o3_0_S1x1024) x := rfl
theorem pay13_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay13 (k0_pay11 v3 v5 v7 v15 x) (k0_pay12 v8) = rowLogits v3 v5 v7 v8 (extractStridedSlice S1x1024 ![4, 0] v15 slices_S8x1024_o4_0_S1x1024) x := rfl
theorem pay14_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay14 v3 v5 v7 v8 v15 x = rowLogits v3 v5 v7 v8 (extractStridedSlice S1x1024 ![5, 0] v15 slices_S8x1024_o5_0_S1x1024) x := rfl
theorem pay1_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay1 v5 v8 (k0_pay15 v3 v7 v15 x) = rowLogits v3 v5 v7 v8 (extractStridedSlice S1x1024 ![6, 0] v15 slices_S8x1024_o6_0_S1x1024) x := rfl
theorem pay2_eq (v3 : FVec F S1024x2048 .bf16) (v5 : FVec F S8x1024 .bf16) (v7 : Vec F S1024 .f32) (v8 : Vec F S8 .f32)
    (v15 : FVec F S8x1024 .f32) (x : Vec F S1x196x2048 .f32) :
    k0_pay2 v3 v5 v7 v8 v15 x = rowLogits v3 v5 v7 v8 (extractStridedSlice S1x1024 ![7, 0] v15 slices_S8x1024_o7_0_S1x1024) x := rfl

end Cert.KernelIdeal.LogitRows

end
-- ==== Proof.LibSlabs.lean ====
/-
  Slabs along the leading axis of a rank-3 block.

  A block of shape [B, h, w] is cut along its leading axis into B slabs of shape [1, h, w], slab o at offsets
  (o, 0, 0) with unit strides. A load of slab o reads, at (u, r, c), the block at (o, r, c); and entry (u, r, c) of
  slab o sits in the block at (o, r, c). For any element type and extents — the form a body takes when it handles the
  batch entries of its block one after another.
-/
import Idealize.ShloMosaic.Lib.Pipeline.Value
import Idealize.ShloMosaic.Lib.ValueIdx

noncomputable section

namespace Cert.Lib.Slabs

open Idealize.ShloMosaic Idealize.ShloMosaic.ValueIdx

/-- A load of slab o reads, at (u, r, c), the block at (o, r, c). -/
theorem ld_apply {Val : EltTy → Type} {e : EltTy} {Bn h w : Nat} (X : (⟨3, ![Bn, h, w]⟩ : Shape).Idx → Val e)
    (o : Nat) (ho : o < Bn)
    (inb : ∀ a, (![o, 0, 0] : Fin 3 → Nat) a + (⟨3, ![1, h, w]⟩ : Shape).size a ≤ (⟨3, ![Bn, h, w]⟩ : Shape).size a)
    (u : Fin 1) (r : Fin h) (c : Fin w) :
    View.ld X (Rect.unit (s := ⟨3, ![Bn, h, w]⟩) ![o, 0, 0] (⟨3, ![1, h, w]⟩ : Shape).size inb) (ix3 u r c)
      = X (ix3 (⟨o, ho⟩ : Fin Bn) r c) := by
  show X ((Rect.unit (s := ⟨3, ![Bn, h, w]⟩) ![o, 0, 0] (⟨3, ![1, h, w]⟩ : Shape).size inb).idx (ix3 u r c)) = _
  refine congrArg X (funext fun a => Fin.ext ?_)
  fin_cases a
  · show o + 1 * u.val = o
    have := u.isLt; omega
  · show 0 + 1 * r.val = r.val
    omega
  · show 0 + 1 * c.val = c.val
    omega

/-- Entry (u, r, c) of slab o sits in the block at (o, r, c). -/
theorem emb_apply {Bn h w : Nat} (o : Nat) (ho : o < Bn)
    (inb : ∀ a, (![o, 0, 0] : Fin 3 → Nat) a + (⟨3, ![1, h, w]⟩ : Shape).size a ≤ (⟨3, ![Bn, h, w]⟩ : Shape).size a)
    (u : Fin 1) (r : Fin h) (c : Fin w) :
    (Rect.unit (s := ⟨3, ![Bn, h, w]⟩) ![o, 0, 0] (⟨3, ![1, h, w]⟩ : Shape).size inb).emb (ix3 u r c)
      = ix3 (⟨o, ho⟩ : Fin Bn) r c := by
  funext a; apply Fin.ext
  fin_cases a
  · show o + 1 * u.val = o
    have := u.isLt; omega
  · show 0 + 1 * r.val = r.val
    omega
  · show 0 + 1 * c.val = c.val
    omega

end Cert.Lib.Slabs

end
-- ==== Proof.KernelBlocks.lean ====
/-
  What each kernel body leaves in its output block, as one function of the input blocks.

  The logits body stores, for each of the eight batch entries of its block, the entry's row of logits into the entry's
  slab of the output block; together the eight slabs tile the block, so the block after the body is the array of
  logits of the input blocks. The glimpse body does the same for its sixteen batch entries: the block after the body is
  the array of glimpses of the input blocks. A slab's entry at (0, r, c) sits in the block at (o, r, c), o the batch
  entry; a load of batch entry o reads the block's row o.
-/
import proofs.«119279_j49658411876662_1_alg».proof.Proof.Gen.KernelIdeal.Frame
import proofs.«119279_j49658411876662_1_alg».proof.Proof.KernelRows
import proofs.«119279_j49658411876662_1_alg».proof.Proof.KernelLogitRows
import proofs.«119279_j49658411876662_1_alg».proof.Proof.LibSlabs

set_option maxRecDepth 16384

noncomputable section

namespace Cert.KernelIdeal.Blocks

open Cert.KernelIdeal Cert.KernelIdeal.Gen Cert.Attn
open Idealize.ShloMosaic Idealize.ShloMosaic.TcCoe Idealize.ShloMosaic.ValueIdx
open scoped BigOperators

theorem hz1 : (![0] : Fin 1 → Nat) = fun _ => 0 := funext fun a => by fin_cases a; rfl
theorem hz2 : (![0, 0] : Fin 2 → Nat) = fun _ => 0 := funext fun a => by fin_cases a <;> rfl

/-! ## The glimpse body's block -/

/-- Slab o of the glimpse body's block is slab o of the glimpses of the input blocks. -/
theorem glimpse_piece (x0 : Vec Ideal S16x196x8 .f32) (x1 : Vec Ideal S16x196x2048 .f32) (o : Nat) (ho : o < 16)
    (ia : ∀ a, (![o, 0, 0] : Fin 3 → Nat) a + S1x196x8.size a ≤ S16x196x8.size a)
    (ic : ∀ a, (![o, 0, 0] : Fin 3 → Nat) a + S1x196x2048.size a ≤ S16x196x2048.size a)
    (io : ∀ a, (![o, 0, 0] : Fin 3 → Nat) a + S1x8x2048.size a ≤ S16x8x2048.size a)
    (x : S1x8x2048.Idx) :
    Rows.glimpseRow (View.ld x0 (Rect.unit (s := S16x196x8) ![o, 0, 0] S1x196x8.size ia))
        (View.ld x1 (Rect.unit (s := S16x196x2048) ![o, 0, 0] S1x196x2048.size ic)) x
      = glimpse x0 x1 ((Rect.unit (s := S16x8x2048) ![o, 0, 0] S1x8x2048.size io).emb x) := by
  obtain ⟨u, g, c, rfl⟩ : ∃ (u : Fin 1) (g : Fin 8) (c : Fin 2048), x = ix3 u g c := ⟨x 0, x 1, x 2, eq_ix3 x⟩
  rw [Rows.glimpseRow_apply, Cert.Lib.Slabs.emb_apply o ho io u g c, glimpse_ix3]
  refine congrArg₂ glimpseOf (funext fun n => ?_) (funext fun n => ?_)
  · exact Cert.Lib.Slabs.ld_apply x0 o ho ia 0 n g
  · exact Cert.Lib.Slabs.ld_apply x1 o ho ic 0 n c

/-- The glimpse body's output block is the array of glimpses of its input blocks. -/
theorem out1_2_eq (x0 : Vec Ideal S16x196x8 .f32) (x1 : Vec Ideal S16x196x2048 .f32) :
    out1_2 (F := Ideal) x0 x1 = glimpse x0 x1 := by
  funext y
  unfold out1_2
  simp only [Rows.pay1_eq, Rows.pay2_eq, Rows.pay4_eq, Rows.pay5_eq, Rows.pay8_eq, Rows.pay9_eq, Rows.pay10_eq, Rows.pay12_eq,
    Rows.pay13_eq, Rows.pay16_eq, Rows.pay17_eq, Rows.pay18_eq, Rows.pay20_eq, Rows.pay21_eq, Rows.pay24_eq, Rows.pay25_eq]
  refine View.canon_apply_of_pieces (Val := Elt Ideal) (glimpse x0 x1 : S16x8x2048.Idx → Elt Ideal .f32) _ ?_ y (cover1_2 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => glimpse_piece x0 x1 15 (by decide) inb_S16x196x8_S1x196x8_15_0_0 inb_S16x196x2048_S1x196x2048_15_0_0 inb_S16x8x2048_S1x8x2048_15_0_0 x
  · exact fun x => glimpse_piece x0 x1 14 (by decide) inb_S16x196x8_S1x196x8_14_0_0 inb_S16x196x2048_S1x196x2048_14_0_0 inb_S16x8x2048_S1x8x2048_14_0_0 x
  · exact fun x => glimpse_piece x0 x1 13 (by decide) inb_S16x196x8_S1x196x8_13_0_0 inb_S16x196x2048_S1x196x2048_13_0_0 inb_S16x8x2048_S1x8x2048_13_0_0 x
  · exact fun x => glimpse_piece x0 x1 12 (by decide) inb_S16x196x8_S1x196x8_12_0_0 inb_S16x196x2048_S1x196x2048_12_0_0 inb_S16x8x2048_S1x8x2048_12_0_0 x
  · exact fun x => glimpse_piece x0 x1 11 (by decide) inb_S16x196x8_S1x196x8_11_0_0 inb_S16x196x2048_S1x196x2048_11_0_0 inb_S16x8x2048_S1x8x2048_11_0_0 x
  · exact fun x => glimpse_piece x0 x1 10 (by decide) inb_S16x196x8_S1x196x8_10_0_0 inb_S16x196x2048_S1x196x2048_10_0_0 inb_S16x8x2048_S1x8x2048_10_0_0 x
  · exact fun x => glimpse_piece x0 x1 9 (by decide) inb_S16x196x8_S1x196x8_9_0_0 inb_S16x196x2048_S1x196x2048_9_0_0 inb_S16x8x2048_S1x8x2048_9_0_0 x
  · exact fun x => glimpse_piece x0 x1 8 (by decide) inb_S16x196x8_S1x196x8_8_0_0 inb_S16x196x2048_S1x196x2048_8_0_0 inb_S16x8x2048_S1x8x2048_8_0_0 x
  · exact fun x => glimpse_piece x0 x1 7 (by decide) inb_S16x196x8_S1x196x8_7_0_0 inb_S16x196x2048_S1x196x2048_7_0_0 inb_S16x8x2048_S1x8x2048_7_0_0 x
  · exact fun x => glimpse_piece x0 x1 6 (by decide) inb_S16x196x8_S1x196x8_6_0_0 inb_S16x196x2048_S1x196x2048_6_0_0 inb_S16x8x2048_S1x8x2048_6_0_0 x
  · exact fun x => glimpse_piece x0 x1 5 (by decide) inb_S16x196x8_S1x196x8_5_0_0 inb_S16x196x2048_S1x196x2048_5_0_0 inb_S16x8x2048_S1x8x2048_5_0_0 x
  · exact fun x => glimpse_piece x0 x1 4 (by decide) inb_S16x196x8_S1x196x8_4_0_0 inb_S16x196x2048_S1x196x2048_4_0_0 inb_S16x8x2048_S1x8x2048_4_0_0 x
  · exact fun x => glimpse_piece x0 x1 3 (by decide) inb_S16x196x8_S1x196x8_3_0_0 inb_S16x196x2048_S1x196x2048_3_0_0 inb_S16x8x2048_S1x8x2048_3_0_0 x
  · exact fun x => glimpse_piece x0 x1 2 (by decide) inb_S16x196x8_S1x196x8_2_0_0 inb_S16x196x2048_S1x196x2048_2_0_0 inb_S16x8x2048_S1x8x2048_2_0_0 x
  · exact fun x => glimpse_piece x0 x1 1 (by decide) inb_S16x196x8_S1x196x8_1_0_0 inb_S16x196x2048_S1x196x2048_1_0_0 inb_S16x8x2048_S1x8x2048_1_0_0 x
  · exact fun x => glimpse_piece x0 x1 0 (by decide) inb_S16x196x8_S1x196x8_0_0_0 inb_S16x196x2048_S1x196x2048_0_0_0 inb_S16x8x2048_S1x8x2048_0_0_0 x

/-! ## The logits body's block -/

theorem pay3_id (v : Vec Ideal S1024x2048 .bf16) : k0_pay3 (F := Ideal) v = v := shapeCast_self _ _
theorem pay4_id (v : Vec Ideal S8x1024 .bf16) : k0_pay4 (F := Ideal) v = v := shapeCast_self _ _

/-- Slab o of the logits body's block is slab o of the logits of the input blocks. -/
theorem logits_piece (x0 : Vec Ideal S8x196x2048 .f32) (x1 : Vec Ideal S8x1024 .bf16) (x2 : Vec Ideal S1024x1024 .bf16)
    (x3 : Vec Ideal S1024 .f32) (x4 : Vec Ideal S1024x2048 .bf16) (x5 : Vec Ideal S1024 .f32) (x6 : Vec Ideal S8x1024 .bf16)
    (x7 : Vec Ideal S8 .f32) (o : Nat) (ho : o < 8) (hs : S8x1024.Slices ![o, 0] S1x1024)
    (ic : ∀ a, (![o, 0, 0] : Fin 3 → Nat) a + S1x196x2048.size a ≤ S8x196x2048.size a)
    (io : ∀ a, (![o, 0, 0] : Fin 3 → Nat) a + S1x196x8.size a ≤ S8x196x8.size a)
    (x : S1x196x8.Idx) :
    LogitRows.rowLogits x4 x6 x5 x7 (extractStridedSlice S1x1024 ![o, 0] (k0_pay5 (F := Ideal) x2 x3 x1) hs)
        (View.ld x0 (Rect.unit (s := S8x196x2048) ![o, 0, 0] S1x196x2048.size ic)) x
      = logits x0 x1 x2 x3 x4 x5 x6 x7 ((Rect.unit (s := S8x196x8) ![o, 0, 0] S1x196x8.size io).emb x) := by
  obtain ⟨u, n, g, rfl⟩ : ∃ (u : Fin 1) (n : Fin 196) (g : Fin 8), x = ix3 u n g := ⟨x 0, x 1, x 2, eq_ix3 x⟩
  rw [LogitRows.rowLogits_apply, Cert.Lib.Slabs.emb_apply o ho io u n g, logits_ix3]
  refine congrArg (fun h => logitOf h x6 x7 g) (funext fun e => ?_)
  unfold Cert.Attn.hidden
  refine congrArg₂ (· + ·) ?_ ?_
  · refine (Cert.Lib.RowSlice.apply (k0_pay5 (F := Ideal) x2 x3 x1) o hs (0 : Fin 1) e (by show o + 0 < 8; omega)).trans ?_
    exact LogitRows.queryProj_apply x2 x3 x1 _ e
  · exact congrArg (fun f => proj f x4 x5 e) (funext fun k => Cert.Lib.Slabs.ld_apply x0 o ho ic 0 n k)

/-- The logits body's output block is the array of logits of its input blocks. -/
theorem out0_8_eq (x0 : Vec Ideal S8x196x2048 .f32) (x1 : Vec Ideal S8x1024 .bf16) (x2 : Vec Ideal S1024x1024 .bf16)
    (x3 : Vec Ideal S1024 .f32) (x4 : Vec Ideal S1024x2048 .bf16) (x5 : Vec Ideal S1024 .f32) (x6 : Vec Ideal S8x1024 .bf16)
    (x7 : Vec Ideal S8 .f32) :
    out0_8 (F := Ideal) x0 x1 x2 x3 x4 x5 x6 x7 = logits x0 x1 x2 x3 x4 x5 x6 x7 := by
  funext y
  unfold out0_8
  simp only [View.ld_unit_zero (S := S1024x1024) hz2, View.ld_unit_zero (S := S1024x2048) hz2, View.ld_unit_zero (S := S8x1024) hz2,
    View.ld_unit_zero (S := S1024) hz1, View.ld_unit_zero (S := S8) hz1]
  simp only [LogitRows.pay1_eq, LogitRows.pay2_eq, LogitRows.pay6_eq, LogitRows.pay7_eq, LogitRows.pay9_eq, LogitRows.pay10_eq,
    LogitRows.pay13_eq, LogitRows.pay14_eq, pay3_id, pay4_id]
  refine View.canon_apply_of_pieces (Val := Elt Ideal) (logits x0 x1 x2 x3 x4 x5 x6 x7 : S8x196x8.Idx → Elt Ideal .f32) _ ?_ y (cover0_8 _ _ _ _ _ _ _ _ y)
  intro p hp
  simp only [List.mem_cons, List.not_mem_nil, or_false] at hp
  rcases hp with rfl | rfl | rfl | rfl | rfl | rfl | rfl | rfl
  · exact fun x => logits_piece x0 x1 x2 x3 x4 x5 x6 x7 7 (by decide) slices_S8x1024_o7_0_S1x1024 inb_S8x196x2048_S1x196x2048_7_0_0 inb_S8x196x8_S1x196x8_7_0_0 x
  · exact fun x => logits_piece x0 x1 x2 x3 x4 x5 x6 x7 6 (by decide) slices_S8x1024_o6_0_S1x1024 inb_S8x196x2048_S1x196x2048_6_0_0 inb_S8x196x8_S1x196x8_6_0_0 x
  · exact fun x => logits_piece x0 x1 x2 x3 x4 x5 x6 x7 5 (by decide) slices_S8x1024_o5_0_S1x1024 inb_S8x196x2048_S1x196x2048_5_0_0 inb_S8x196x8_S1x196x8_5_0_0 x
  · exact fun x => logits_piece x0 x1 x2 x3 x4 x5 x6 x7 4 (by decide) slices_S8x1024_o4_0_S1x1024 inb_S8x196x2048_S1x196x2048_4_0_0 inb_S8x196x8_S1x196x8_4_0_0 x
  · exact fun x => logits_piece x0 x1 x2 x3 x4 x5 x6 x7 3 (by decide) slices_S8x1024_o3_0_S1x1024 inb_S8x196x2048_S1x196x2048_3_0_0 inb_S8x196x8_S1x196x8_3_0_0 x
  · exact fun x => logits_piece x0 x1 x2 x3 x4 x5 x6 x7 2 (by decide) slices_S8x1024_o2_0_S1x1024 inb_S8x196x2048_S1x196x2048_2_0_0 inb_S8x196x8_S1x196x8_2_0_0 x
  · exact fun x => logits_piece x0 x1 x2 x3 x4 x5 x6 x7 1 (by decide) slices_S8x1024_o1_0_S1x1024 inb_S8x196x2048_S1x196x2048_1_0_0 inb_S8x196x8_S1x196x8_1_0_0 x
  · exact fun x => logits_piece x0 x1 x2 x3 x4 x5 x6 x7 0 (by decide) slices_S8x1024_o0_0_S1x1024 inb_S8x196x2048_S1x196x2048_0_0_0 inb_S8x196x8_S1x196x8_0_0_0 x

end Cert.KernelIdeal.Blocks

end
-- ==== Proof.KernelArrays.lean ====
/-
  What each region leaves in its output array, as one function of the arrays it finds.

  Grid point t of the logits region works on batch entries 8t … 8t + 7: its context and query blocks are those rows of
  the context and query arrays, its weight and bias blocks are the whole arrays, and what it writes back is rows
  8t … 8t + 7 of the array of logits of the whole arrays. The 32 points' blocks tile the output, so the output array
  ends as the array of logits. The glimpse region is the same with 16 batch entries per point and 16 points.
-/
import proofs.«119279_j49658411876662_1_alg».proof.Proof.KernelBlocks
import Idealize.ShloMosaic.Lib.Pipeline.Value

set_option maxRecDepth 16384

noncomputable section

namespace Cert.KernelIdeal.Arrays

open Cert.KernelIdeal Cert.KernelIdeal.Gen Cert.Attn
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-! ## The logits region -/

/-- The printed index maps over the grid: the batched windows move with the point, the others stay at the origin. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 3) = t.val ∧ win0_8.index t (1 : Fin 3) = 0 ∧ win0_8.index t (2 : Fin 3) = 0) :=
  (by decide +kernel : ∀ t : Fin grid0.N, _)

/-- Rows 8t … 8t + 7 of the logits of the whole arrays are the logits of those rows. -/
theorem logits_rows (ctx : S256x196x2048.Idx → EReal) (q : S256x1024.Idx → EReal) (Wq : S1024x1024.Idx → EReal)
    (bq : S1024.Idx → EReal) (Wc : S1024x2048.Idx → EReal) (bc : S1024.Idx → EReal) (Wo : S8x1024.Idx → EReal)
    (bo : S8.Idx → EReal) (x0 : S8x196x2048.Idx → EReal) (x1 : S8x1024.Idx → EReal) (b' : Fin 8) (b : Fin 256)
    (h0 : ∀ (n : Fin 196) (k : Fin 2048), x0 (ix3 b' n k) = ctx (ix3 b n k))
    (h1 : ∀ k : Fin 1024, x1 (ix2 b' k) = q (ix2 b k)) (n : Fin 196) (g : Fin 8) :
    logits x0 x1 Wq bq Wc bc Wo bo (ix3 b' n g) = logits ctx q Wq bq Wc bc Wo bo (ix3 b n g) := by
  rw [logits_ix3, logits_ix3]
  refine congrArg (fun h => logitOf h Wo bo g) ?_
  exact congrArg₂ (fun qx cx => Cert.Attn.hidden qx cx Wq bq Wc bc) (funext h1) (funext (h0 n))

/-- What point t of the logits region writes back is block t of the logits of the arrays the region finds. -/
theorem flushed0_eq (c : Dev nD) (t : Fin cfg0.N) :
    (dat0 V c).flushed 8 t = ((cfg0.win 8).blk t).view.read (Elt Ideal)
      (logits (V c main_arg0) (V c main_v3) (V c main_v0) (V c main_arg3) (V c main_v1) (V c main_arg5) (V c main_v2) (V c main_arg7)) := by
  show (cfg0.win 8).cut (grid0.coords t) ((dat0 V c).after 8 t) = _
  rw [after0_8, Blocks.out0_8_eq]
  obtain ⟨⟨a0, a1, a2⟩, ⟨b0, b1⟩, ⟨c0, c1⟩, d0, ⟨e0, e1⟩, f0, ⟨g0, g1⟩, k0, ⟨o0, o1, o2⟩⟩ := idx_facts0 t
  have ht : t.val < 32 := lt_of_lt_of_eq t.isLt N_0
  have w2 : iblk0 V c 2 t = V c main_v0 := by
    funext y
    show V c main_v0 (((cfg0.win 2).blk t).view.emb y) = V c main_v0 y
    refine congrArg (V c main_v0) (funext fun a => Fin.ext ?_)
    match a with
    | ⟨0, _⟩ => show win0_2.index t (0 : Fin 2) * 1024 + 1 * (y 0).val = (y 0).val; rw [c0]; omega
    | ⟨1, _⟩ => show win0_2.index t (1 : Fin 2) * 1024 + 1 * (y 1).val = (y 1).val; rw [c1]; omega
  have w3 : iblk0 V c 3 t = V c main_arg3 := by
    funext y
    show V c main_arg3 (((cfg0.win 3).blk t).view.emb y) = V c main_arg3 y
    refine congrArg (V c main_arg3) (funext fun a => Fin.ext ?_)
    match a with
    | ⟨0, _⟩ => show win0_3.index t (0 : Fin 1) * 1024 + 1 * (y 0).val = (y 0).val; rw [d0]; omega
  have w4 : iblk0 V c 4 t = V c main_v1 := by
    funext y
    show V c main_v1 (((cfg0.win 4).blk t).view.emb y) = V c main_v1 y
    refine congrArg (V c main_v1) (funext fun a => Fin.ext ?_)
    match a with
    | ⟨0, _⟩ => show win0_4.index t (0 : Fin 2) * 1024 + 1 * (y 0).val = (y 0).val; rw [e0]; omega
    | ⟨1, _⟩ => show win0_4.index t (1 : Fin 2) * 2048 + 1 * (y 1).val = (y 1).val; rw [e1]; omega
  have w5 : iblk0 V c 5 t = V c main_arg5 := by
    funext y
    show V c main_arg5 (((cfg0.win 5).blk t).view.emb y) = V c main_arg5 y
    refine congrArg (V c main_arg5) (funext fun a => Fin.ext ?_)
    match a with
    | ⟨0, _⟩ => show win0_5.index t (0 : Fin 1) * 1024 + 1 * (y 0).val = (y 0).val; rw [f0]; omega
  have w6 : iblk0 V c 6 t = V c main_v2 := by
    funext y
    show V c main_v2 (((cfg0.win 6).blk t).view.emb y) = V c main_v2 y
    refine congrArg (V c main_v2) (funext fun a => Fin.ext ?_)
    match a with
    | ⟨0, _⟩ => show win0_6.index t (0 : Fin 2) * 8 + 1 * (y 0).val = (y 0).val; rw [g0]; omega
    | ⟨1, _⟩ => show win0_6.index t (1 : Fin 2) * 1024 + 1 * (y 1).val = (y 1).val; rw [g1]; omega
  have w7 : iblk0 V c 7 t = V c main_arg7 := by
    funext y
    show V c main_arg7 (((cfg0.win 7).blk t).view.emb y) = V c main_arg7 y
    refine congrArg (V c main_arg7) (funext fun a => Fin.ext ?_)
    match a with
    | ⟨0, _⟩ => show win0_7.index t (0 : Fin 1) * 8 + 1 * (y 0).val = (y 0).val; rw [k0]; omega
  rw [w2, w3, w4, w5, w6, w7]
  funext j
  obtain ⟨b', n, g, rfl⟩ : ∃ (b' : Fin 8) (n : Fin 196) (g : Fin 8), j = ix3 b' n g := ⟨j 0, j 1, j 2, eq_ix3 j⟩
  have hb : t.val * 8 + b'.val < 256 := by have := b'.isLt; omega
  have hemb : ((cfg0.win 8).blk t).view.emb (ix3 b' n g) = ix3 (⟨t.val * 8 + b'.val, hb⟩ : Fin 256) n g := by
    funext a; apply Fin.ext
    match a with
    | ⟨0, _⟩ => show win0_8.index t (0 : Fin 3) * 8 + 1 * b'.val = t.val * 8 + b'.val; rw [o0]; omega
    | ⟨1, _⟩ => show win0_8.index t (1 : Fin 3) * 196 + 1 * n.val = n.val; rw [o1]; omega
    | ⟨2, _⟩ => show win0_8.index t (2 : Fin 3) * 8 + 1 * g.val = g.val; rw [o2]; omega
  show logits (iblk0 V c 0 t) (iblk0 V c 1 t) (V c main_v0) (V c main_arg3) (V c main_v1) (V c main_arg5) (V c main_v2) (V c main_arg7) (ix3 b' n g)
    = logits (V c main_arg0) (V c main_v3) (V c main_v0) (V c main_arg3) (V c main_v1) (V c main_arg5) (V c main_v2) (V c main_arg7)
        (((cfg0.win 8).blk t).view.emb (ix3 b' n g))
  rw [hemb]
  refine logits_rows (V c main_arg0) (V c main_v3) (V c main_v0) (V c main_arg3) (V c main_v1) (V c main_arg5) (V c main_v2) (V c main_arg7)
    (iblk0 V c 0 t) (iblk0 V c 1 t) b' ⟨t.val * 8 + b'.val, hb⟩ ?_ ?_ n g
  · intro n k
    show V c main_arg0 (((cfg0.win 0).blk t).view.emb (ix3 b' n k)) = V c main_arg0 (ix3 (⟨t.val * 8 + b'.val, hb⟩ : Fin 256) n k)
    refine congrArg (V c main_arg0) (funext fun a => Fin.ext ?_)
    match a with
    | ⟨0, _⟩ => show win0_0.index t (0 : Fin 3) * 8 + 1 * b'.val = t.val * 8 + b'.val; rw [a0]; omega
    | ⟨1, _⟩ => show win0_0.index t (1 : Fin 3) * 196 + 1 * n.val = n.val; rw [a1]; omega
    | ⟨2, _⟩ => show win0_0.index t (2 : Fin 3) * 2048 + 1 * k.val = k.val; rw [a2]; omega
  · intro k
    show V c main_v3 (((cfg0.win 1).blk t).view.emb (ix2 b' k)) = V c main_v3 (ix2 (⟨t.val * 8 + b'.val, hb⟩ : Fin 256) k)
    refine congrArg (V c main_v3) (funext fun a => Fin.ext ?_)
    match a with
    | ⟨0, _⟩ => show win0_1.index t (0 : Fin 2) * 8 + 1 * b'.val = t.val * 8 + b'.val; rw [b0]; omega
    | ⟨1, _⟩ => show win0_1.index t (1 : Fin 2) * 1024 + 1 * k.val = k.val; rw [b1]; omega

/-- An index of the logits array is in point t's block iff each coordinate is in the block's range on its axis. -/
theorem mem_blk0 (t : Fin cfg0.N) (i : S256x196x8.Idx) :
    i ∈ ((cfg0.win 8).blk t).view.set ↔ ∀ a : Fin 3, win0_8.index t a * S8x196x8.size a ≤ (i a).val
      ∧ (i a).val < win0_8.index t a * S8x196x8.size a + S8x196x8.size a := by
  show i ∈ ((View.whole main_v4).slice (win0_8.rect t)).set ↔ _
  rw [View.set_slice_whole, Rect.mem_set_unit]
  exact Iff.rfl

/-- Every index of the logits array is in the block of the point its batch entry belongs to. -/
theorem cover0 (i : S256x196x8.Idx) :
    ∃ t : Fin cfg0.N, (cfg0.win 8).flush t = true ∧ i ∈ ((cfg0.win 8).blk t).view.set := by
  have hi0 : (i 0).val < 256 := (i 0).isLt
  have hi1 : (i 1).val < 196 := (i 1).isLt
  have hi2 : (i 2).val < 8 := (i 2).isLt
  have hN : cfg0.N = 32 := N_0
  have hlt : (i 0).val / 8 < cfg0.N := by rw [hN]; omega
  obtain ⟨-, -, -, -, -, -, -, -, ⟨o0, o1, o2⟩⟩ := idx_facts0 ⟨(i 0).val / 8, hlt⟩
  refine ⟨⟨(i 0).val / 8, hlt⟩, flush0_8 _, ?_⟩
  rw [mem_blk0]
  intro a
  match a with
  | ⟨0, _⟩ =>
    show win0_8.index ⟨(i 0).val / 8, hlt⟩ (0 : Fin 3) * 8 ≤ (i 0).val ∧ (i 0).val < win0_8.index ⟨(i 0).val / 8, hlt⟩ (0 : Fin 3) * 8 + 8
    rw [o0]; show (i 0).val / 8 * 8 ≤ (i 0).val ∧ (i 0).val < (i 0).val / 8 * 8 + 8; omega
  | ⟨1, _⟩ =>
    show win0_8.index ⟨(i 0).val / 8, hlt⟩ (1 : Fin 3) * 196 ≤ (i 1).val ∧ (i 1).val < win0_8.index ⟨(i 0).val / 8, hlt⟩ (1 : Fin 3) * 196 + 196
    rw [o1]; omega
  | ⟨2, _⟩ =>
    show win0_8.index ⟨(i 0).val / 8, hlt⟩ (2 : Fin 3) * 8 ≤ (i 2).val ∧ (i 2).val < win0_8.index ⟨(i 0).val / 8, hlt⟩ (2 : Fin 3) * 8 + 8
    rw [o2]; omega

/-- The logits region leaves the array of logits of the arrays it finds. -/
theorem final0 (c : Dev nD) :
    (dat0 V c).arrAt 8 cfg0.N
      = logits (V c main_arg0) (V c main_v3) (V c main_v0) (V c main_arg3) (V c main_v1) (V c main_arg5) (V c main_v2) (V c main_arg7) :=
  (dat0 V c).arrAt_eq_of_cover 8 _ (fun t _ => flushed0_eq V c t) cover0

/-! ## The glimpse region -/

theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0) :=
  (by decide +kernel : ∀ t : Fin grid1.N, _)

/-- Rows 16t … 16t + 15 of the glimpses of the whole arrays are the glimpses of those rows. -/
theorem glimpse_rows (A : S256x196x8.Idx → EReal) (ctx : S256x196x2048.Idx → EReal) (x0 : S16x196x8.Idx → EReal)
    (x1 : S16x196x2048.Idx → EReal) (b' : Fin 16) (b : Fin 256)
    (h0 : ∀ (n : Fin 196) (g : Fin 8), x0 (ix3 b' n g) = A (ix3 b n g))
    (h1 : ∀ (n : Fin 196) (k : Fin 2048), x1 (ix3 b' n k) = ctx (ix3 b n k)) (g : Fin 8) (k : Fin 2048) :
    glimpse x0 x1 (ix3 b' g k) = glimpse A ctx (ix3 b g k) := by
  rw [glimpse_ix3, glimpse_ix3]
  exact congrArg₂ glimpseOf (funext fun n => h0 n g) (funext fun n => h1 n k)

/-- What point t of the glimpse region writes back is block t of the glimpses of the arrays the region finds. -/
theorem flushed1_eq (c : Dev nD) (t : Fin cfg1.N) :
    (dat1 V c).flushed 2 t = ((cfg1.win 2).blk t).view.read (Elt Ideal) (glimpse (V c main_v4) (V c main_arg0)) := by
  show (cfg1.win 2).cut (grid1.coords t) ((dat1 V c).after 2 t) = _
  rw [after1_2, Blocks.out1_2_eq]
  obtain ⟨⟨a0, a1, a2⟩, ⟨b0, b1, b2⟩, ⟨o0, o1, o2⟩⟩ := idx_facts1 t
  have ht : t.val < 16 := lt_of_lt_of_eq t.isLt N_1
  funext j
  obtain ⟨b', g, k, rfl⟩ : ∃ (b' : Fin 16) (g : Fin 8) (k : Fin 2048), j = ix3 b' g k := ⟨j 0, j 1, j 2, eq_ix3 j⟩
  have hb : t.val * 16 + b'.val < 256 := by have := b'.isLt; omega
  have hemb : ((cfg1.win 2).blk t).view.emb (ix3 b' g k) = ix3 (⟨t.val * 16 + b'.val, hb⟩ : Fin 256) g k := by
    funext a; apply Fin.ext
    match a with
    | ⟨0, _⟩ => show win1_2.index t (0 : Fin 3) * 16 + 1 * b'.val = t.val * 16 + b'.val; rw [o0]; omega
    | ⟨1, _⟩ => show win1_2.index t (1 : Fin 3) * 8 + 1 * g.val = g.val; rw [o1]; omega
    | ⟨2, _⟩ => show win1_2.index t (2 : Fin 3) * 2048 + 1 * k.val = k.val; rw [o2]; omega
  show glimpse (iblk1 V c 0 t) (iblk1 V c 1 t) (ix3 b' g k)
    = glimpse (V c main_v4) (V c main_arg0) (((cfg1.win 2).blk t).view.emb (ix3 b' g k))
  rw [hemb]
  refine glimpse_rows (V c main_v4) (V c main_arg0) (iblk1 V c 0 t) (iblk1 V c 1 t) b' ⟨t.val * 16 + b'.val, hb⟩ ?_ ?_ g k
  · intro n g
    show V c main_v4 (((cfg1.win 0).blk t).view.emb (ix3 b' n g)) = V c main_v4 (ix3 (⟨t.val * 16 + b'.val, hb⟩ : Fin 256) n g)
    refine congrArg (V c main_v4) (funext fun a => Fin.ext ?_)
    match a with
    | ⟨0, _⟩ => show win1_0.index t (0 : Fin 3) * 16 + 1 * b'.val = t.val * 16 + b'.val; rw [a0]; omega
    | ⟨1, _⟩ => show win1_0.index t (1 : Fin 3) * 196 + 1 * n.val = n.val; rw [a1]; omega
    | ⟨2, _⟩ => show win1_0.index t (2 : Fin 3) * 8 + 1 * g.val = g.val; rw [a2]; omega
  · intro n k
    show V c main_arg0 (((cfg1.win 1).blk t).view.emb (ix3 b' n k)) = V c main_arg0 (ix3 (⟨t.val * 16 + b'.val, hb⟩ : Fin 256) n k)
    refine congrArg (V c main_arg0) (funext fun a => Fin.ext ?_)
    match a with
    | ⟨0, _⟩ => show win1_1.index t (0 : Fin 3) * 16 + 1 * b'.val = t.val * 16 + b'.val; rw [b0]; omega
    | ⟨1, _⟩ => show win1_1.index t (1 : Fin 3) * 196 + 1 * n.val = n.val; rw [b1]; omega
    | ⟨2, _⟩ => show win1_1.index t (2 : Fin 3) * 2048 + 1 * k.val = k.val; rw [b2]; omega

theorem mem_blk1 (t : Fin cfg1.N) (i : S256x8x2048.Idx) :
    i ∈ ((cfg1.win 2).blk t).view.set ↔ ∀ a : Fin 3, win1_2.index t a * S16x8x2048.size a ≤ (i a).val
      ∧ (i a).val < win1_2.index t a * S16x8x2048.size a + S16x8x2048.size a := by
  show i ∈ ((View.whole main_v5).slice (win1_2.rect t)).set ↔ _
  rw [View.set_slice_whole, Rect.mem_set_unit]
  exact Iff.rfl

theorem cover1 (i : S256x8x2048.Idx) :
    ∃ t : Fin cfg1.N, (cfg1.win 2).flush t = true ∧ i ∈ ((cfg1.win 2).blk t).view.set := by
  have hi0 : (i 0).val < 256 := (i 0).isLt
  have hi1 : (i 1).val < 8 := (i 1).isLt
  have hi2 : (i 2).val < 2048 := (i 2).isLt
  have hN : cfg1.N = 16 := N_1
  have hlt : (i 0).val / 16 < cfg1.N := by rw [hN]; omega
  obtain ⟨-, -, ⟨o0, o1, o2⟩⟩ := idx_facts1 ⟨(i 0).val / 16, hlt⟩
  refine ⟨⟨(i 0).val / 16, hlt⟩, flush1_2 _, ?_⟩
  rw [mem_blk1]
  intro a
  match a with
  | ⟨0, _⟩ =>
    show win1_2.index ⟨(i 0).val / 16, hlt⟩ (0 : Fin 3) * 16 ≤ (i 0).val ∧ (i 0).val < win1_2.index ⟨(i 0).val / 16, hlt⟩ (0 : Fin 3) * 16 + 16
    rw [o0]; show (i 0).val / 16 * 16 ≤ (i 0).val ∧ (i 0).val < (i 0).val / 16 * 16 + 16; omega
  | ⟨1, _⟩ =>
    show win1_2.index ⟨(i 0).val / 16, hlt⟩ (1 : Fin 3) * 8 ≤ (i 1).val ∧ (i 1).val < win1_2.index ⟨(i 0).val / 16, hlt⟩ (1 : Fin 3) * 8 + 8
    rw [o1]; omega
  | ⟨2, _⟩ =>
    show win1_2.index ⟨(i 0).val / 16, hlt⟩ (2 : Fin 3) * 2048 ≤ (i 2).val ∧ (i 2).val < win1_2.index ⟨(i 0).val / 16, hlt⟩ (2 : Fin 3) * 2048 + 2048
    rw [o2]; omega

/-- The glimpse region leaves the array of glimpses of the arrays it finds. -/
theorem final1 (c : Dev nD) :
    (dat1 V c).arrAt 2 cfg1.N = glimpse (V c main_v4) (V c main_arg0) :=
  (dat1 V c).arrAt_eq_of_cover 2 _ (fun t _ => flushed1_eq V c t) cover1

end Cert.KernelIdeal.Arrays

end
-- ==== Proof.KernelResult.lean ====
/-
  The idealized kernel's result as one function of its arguments.

  The four host conversions before the regions change the float format only, which at the exact values changes
  nothing. The logits region finds the arguments and their converted copies and leaves the array of logits; the
  glimpse region finds that array and the context and leaves the array of glimpses; the last host operation reshapes
  it. So the result buffer ends as the reshape of the glimpses of the logits of the arguments.
-/
import proofs.«119279_j49658411876662_1_alg».proof.Proof.KernelRun
import proofs.«119279_j49658411876662_1_alg».proof.Proof.KernelArrays

set_option maxRecDepth 16384

noncomputable section

namespace Cert.KernelIdeal.Result

open Cert.KernelIdeal Cert.KernelIdeal.Gen Cert.Attn
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-- The result as a function of the argument arrays: the glimpses of the logits, reshaped. -/
def value (c : Dev nD) : Buf (Elt Ideal) ((c.tc : Thread nD τ).loc main_v6) :=
  shapeCast S256x16384
    (glimpse
      (logits (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)))
      (m ((c.tc : Thread nD τ).loc main_arg0)))
    shapeCasts_S256x8x2048_S256x16384

/-! ## What the logits region finds -/

theorem V1_arg0 (c : Dev nD) : V1 m ρ c main_arg0 = m ((c.tc : Thread nD τ).loc main_arg0) := by
  show StableHlo.after hostOps0 (W0 m ρ c) (Proc.devRef .tc main_arg0) = _
  after_results
theorem V1_arg3 (c : Dev nD) : V1 m ρ c main_arg3 = m ((c.tc : Thread nD τ).loc main_arg3) := by
  show StableHlo.after hostOps0 (W0 m ρ c) (Proc.devRef .tc main_arg3) = _
  after_results
theorem V1_arg5 (c : Dev nD) : V1 m ρ c main_arg5 = m ((c.tc : Thread nD τ).loc main_arg5) := by
  show StableHlo.after hostOps0 (W0 m ρ c) (Proc.devRef .tc main_arg5) = _
  after_results
theorem V1_arg7 (c : Dev nD) : V1 m ρ c main_arg7 = m ((c.tc : Thread nD τ).loc main_arg7) := by
  show StableHlo.after hostOps0 (W0 m ρ c) (Proc.devRef .tc main_arg7) = _
  after_results
theorem V1_v0 (c : Dev nD) :
    (V1 m ρ c main_v0 : S1024x1024.Idx → EReal) = m ((c.tc : Thread nD τ).loc main_arg2) := by
  show StableHlo.after hostOps0 (W0 m ρ c) (Proc.devRef .tc main_v0) = _
  after_results
  first | done | rfl
theorem V1_v1 (c : Dev nD) :
    (V1 m ρ c main_v1 : S1024x2048.Idx → EReal) = m ((c.tc : Thread nD τ).loc main_arg4) := by
  show StableHlo.after hostOps0 (W0 m ρ c) (Proc.devRef .tc main_v1) = _
  after_results
  first | done | rfl
theorem V1_v2 (c : Dev nD) :
    (V1 m ρ c main_v2 : S8x1024.Idx → EReal) = m ((c.tc : Thread nD τ).loc main_arg6) := by
  show StableHlo.after hostOps0 (W0 m ρ c) (Proc.devRef .tc main_v2) = _
  after_results
  first | done | rfl
theorem V1_v3 (c : Dev nD) :
    (V1 m ρ c main_v3 : S256x1024.Idx → EReal) = m ((c.tc : Thread nD τ).loc main_arg1) := by
  show StableHlo.after hostOps0 (W0 m ρ c) (Proc.devRef .tc main_v3) = _
  after_results
  first | done | rfl

/-! ## What the glimpse region finds -/

/-- The logits array, when the glimpse region is entered, is the array of logits of the arguments. -/
theorem V2_v4 (c : Dev nD) :
    V2 m ρ c main_v4
      = logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (W2_arr m ρ c 8).trans ?_
  rw [Arrays.final0 (V1 m ρ) c, V1_arg0, V1_v3, V1_v0, V1_arg3, V1_v1, V1_arg5, V1_v2, V1_arg7]

/-- The context array, when the glimpse region is entered, is as launched. -/
theorem V2_arg0 (c : Dev nD) : V2 m ρ c main_arg0 = m ((c.tc : Thread nD τ).loc main_arg0) :=
  ((W2_arr m ρ c 0).trans (((dat0 (V1 m ρ) c).arrAt_in 0 rfl _).trans (A_eq0 (V1 m ρ) c 0))).trans (V1_arg0 m ρ c)

/-- The result buffer after the run is the function of the arguments. -/
theorem result (c : Dev nD) : W4 m ρ c (Proc.devRef .tc main_v6) = value m c := by
  rw [RunValue.W4_result]
  unfold value
  refine congrArg (fun z => shapeCast S256x16384 z shapeCasts_S256x8x2048_S256x16384) ?_
  rw [Arrays.final1 (V2 m ρ) c, V2_v4, V2_arg0]

end Cert.KernelIdeal.Result

end
-- ==== Proof.lean ====
/-
  Additive attention with a softmax over the regions: the kernel program equals its reference at the exact values.

  The kernel program converts the weights and the query to a narrower float format on the host, computes the attention
  logits in one region (a block of eight batch entries per grid point, the entries one after another), turns them into
  softmax weights and glimpses in a second region (sixteen batch entries per grid point), and reshapes the glimpses.
  The reference computes the same quantities with whole-array host operations. At the exact values a change of format
  is the identity, a product into a zero accumulator is the host's product, and both programs compute, index by index,
  the same sums, the same hyperbolic tangent, the same column maximum folded from minus infinity, the same exponentials
  and the same quotient; the sums are finite sums in a commutative monoid, so their order does not matter and the
  finiteness of the inputs is never used. The idealized program is the kernel's own text read at the exact values (the
  ideal pass rewrote nothing), so the preservation claim is trivial. The frames of the two kernel programs are the
  generated ones; the reference's frame is its generated run with the result dropped.
-/
import proofs.«119279_j49658411876662_1_alg».proof.Defs
import proofs.«119279_j49658411876662_1_alg».proof.Proof.Gen.Kernel
import proofs.«119279_j49658411876662_1_alg».proof.Proof.Gen.Kernel.Skeleton
import proofs.«119279_j49658411876662_1_alg».proof.Proof.Gen.Kernel.Launch
import proofs.«119279_j49658411876662_1_alg».proof.Proof.Gen.Kernel.Points
import proofs.«119279_j49658411876662_1_alg».proof.Proof.Gen.Kernel.Frame
import proofs.«119279_j49658411876662_1_alg».proof.Proof.Gen.KernelIdeal
import proofs.«119279_j49658411876662_1_alg».proof.Proof.Gen.KernelIdeal.Skeleton
import proofs.«119279_j49658411876662_1_alg».proof.Proof.Gen.KernelIdeal.Launch
import proofs.«119279_j49658411876662_1_alg».proof.Proof.Gen.KernelIdeal.Points
import proofs.«119279_j49658411876662_1_alg».proof.Proof.Gen.KernelIdeal.Frame
import proofs.«119279_j49658411876662_1_alg».proof.Proof.Gen.ReferenceIdeal
import proofs.«119279_j49658411876662_1_alg».proof.Proof.Gen.ReferenceIdeal.Run
import proofs.«119279_j49658411876662_1_alg».proof.Proof.Gen.ReferenceIdeal.Read
import proofs.«119279_j49658411876662_1_alg».proof.Proof.Gen.Pre_finite_inputs
import proofs.«119279_j49658411876662_1_alg».proof.Proof.RefSide
import proofs.«119279_j49658411876662_1_alg».proof.Proof.KernelResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result term, from arguments that agree with the kernel's, is the kernel's function of its arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v29 m' c = Cert.KernelIdeal.Result.value m c := by
  obtain ⟨h0, h1, h2, h3, h4, h5, h6, h7⟩ := hagree
  rw [Cert.ReferenceIdeal.Read.val_main_v29_eq, h0, h1, h2, h3, h4, h5, h6, h7]
  unfold Cert.ReferenceIdeal.Read.val_main_v29
  rw [Cert.ReferenceIdeal.RefValue.v28_eq]
  rfl

/-- Both idealized programs end with the glimpses of the logits of the arguments, reshaped. -/
theorem algebraic : Cert.algebraic_KernelIdeal_ReferenceIdeal := by
  intro m ρ m' ρ' _ hagree
  refine ⟨fun c => Cert.KernelIdeal.Result.value m c, ?_, ?_⟩
  · exact (θ_run Cert.KernelIdeal.defs _ _).mono
      (fun r h c => ⟨(h c).1.trans (Cert.KernelIdeal.Result.result m ρ c), (h c).2⟩)
      (Cert.KernelIdeal.RunValue.run_named m ρ)
  · exact (θ_run Cert.ReferenceIdeal.defs _ _).mono
      (fun _ h c => ⟨(h c).1.trans (reference_value m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
